-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "inv2h" .f32 0x410325C5#32 ((134217728 / 16374563 : ℝ) : EReal)
  ∧ IdealRules.named_const.Statement Cert.KernelIdeal.κ "inv2h" .f32 0x410325C5#32 ((134217728 / 16374563 : ℝ) : EReal)
  ∧ IdealRules.named_const.Statement Cert.KernelIdeal.κ "inv4h2" .f32 0x42865F5B#32 ((1073741824 / 15981573 : ℝ) : EReal)
  ∧ IdealRules.named_const.Statement Cert.KernelIdeal.κ "inv2h" .f32 0x410325C5#32 ((134217728 / 16374563 : ℝ) : EReal)
  ∧ IdealRules.named_const.Statement Cert.KernelIdeal.κ "inv2h" .f32 0x410325C5#32 ((134217728 / 16374563 : ℝ) : EReal)
  ∧ IdealRules.named_const.Statement Cert.KernelIdeal.κ "inv4h2" .f32 0x42865F5B#32 ((1073741824 / 15981573 : ℝ) : EReal)
  ∧ IdealRules.named_const.Statement Cert.KernelIdeal.κ "inv2h" .f32 0x410325C5#32 ((134217728 / 16374563 : ℝ) : EReal)
  ∧ IdealRules.named_const.Statement Cert.KernelIdeal.κ "inv2h" .f32 0x410325C5#32 ((134217728 / 16374563 : ℝ) : EReal)
  ∧ IdealRules.named_const.Statement Cert.KernelIdeal.κ "inv4h2" .f32 0x42865F5B#32 ((1073741824 / 15981573 : ℝ) : EReal)
  ∧ IdealRules.named_const.Statement Cert.KernelIdeal.κ "inv2h" .f32 0x410325C5#32 ((134217728 / 16374563 : ℝ) : EReal)
  ∧ IdealRules.named_const.Statement Cert.KernelIdeal.κ "inv2h" .f32 0x410325C5#32 ((134217728 / 16374563 : ℝ) : EReal)
  ∧ IdealRules.named_const.Statement Cert.KernelIdeal.κ "inv4h2" .f32 0x42865F5B#32 ((1073741824 / 15981573 : ℝ) : EReal)
  ∧ IdealRules.named_const.Statement Cert.KernelIdeal.κ "inv2h" .f32 0x410325C5#32 ((134217728 / 16374563 : ℝ) : EReal)
  ∧ IdealRules.named_const.Statement Cert.KernelIdeal.κ "inv2h" .f32 0x410325C5#32 ((134217728 / 16374563 : ℝ) : EReal)
  ∧ IdealRules.named_const.Statement Cert.KernelIdeal.κ "inv4h2" .f32 0x42865F5B#32 ((1073741824 / 15981573 : ℝ) : EReal)
  ∧ IdealRules.named_const.Statement Cert.KernelIdeal.κ "inv2h" .f32 0x410325C5#32 ((134217728 / 16374563 : ℝ) : EReal)
  ∧ IdealRules.named_const.Statement Cert.KernelIdeal.κ "inv2h" .f32 0x410325C5#32 ((134217728 / 16374563 : ℝ) : EReal)
  ∧ IdealRules.named_const.Statement Cert.KernelIdeal.κ "inv4h2" .f32 0x42865F5B#32 ((1073741824 / 15981573 : ℝ) : EReal)
  ∧ IdealRules.named_const.Statement Cert.KernelIdeal.κ "inv2h" .f32 0x410325C5#32 ((134217728 / 16374563 : ℝ) : EReal)
  ∧ IdealRules.named_const.Statement Cert.KernelIdeal.κ "inv2h" .f32 0x410325C5#32 ((134217728 / 16374563 : ℝ) : EReal)
  ∧ IdealRules.named_const.Statement Cert.KernelIdeal.κ "inv4h2" .f32 0x42865F5B#32 ((1073741824 / 15981573 : ℝ) : EReal)
  ∧ IdealRules.named_const.Statement Cert.KernelIdeal.κ "inv2h" .f32 0x410325C5#32 ((134217728 / 16374563 : ℝ) : EReal)
  ∧ IdealRules.named_const.Statement Cert.KernelIdeal.κ "inv2h" .f32 0x410325C5#32 ((134217728 / 16374563 : ℝ) : EReal)
  ∧ IdealRules.named_const.Statement Cert.KernelIdeal.κ "inv4h2" .f32 0x42865F5B#32 ((1073741824 / 15981573 : ℝ) : EReal)
  ∧ IdealRules.named_const.Statement Cert.KernelIdeal.κ "inv2h" .f32 0x410325C5#32 ((134217728 / 16374563 : ℝ) : EReal)
  ∧ IdealRules.named_const.Statement Cert.KernelIdeal.κ "inv2h" .f32 0x410325C5#32 ((134217728 / 16374563 : ℝ) : EReal)
  ∧ IdealRules.named_const.Statement Cert.KernelIdeal.κ "inv4h2" .f32 0x42865F5B#32 ((1073741824 / 15981573 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x1024 : Shape := ⟨4, ![32, 1, 1024, 1024]⟩
abbrev S_ : Shape := ⟨0, ![]⟩

class Facts : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel

variable [Facts]

def fn {F : FTy → Type} [FloatOps F] (main_arg0 : FVec F S32x1x1024x1024 .f32) : IVec S_ 1 :=
  let main_v0 : FVec F S32x1x1024x1024 .f32 := Host.absf main_arg0
  let main_cst : FVec F S_ .f32 := constant S_ .f32 0x7F800000#32
  let main_v1 : FVec F S32x1x1024x1024 .f32 := broadcastInDim S32x1x1024x1024 ![] bcast_S_S32x1x1024x1024 main_cst
  let main_v2 : IVec S32x1x1024x1024 1 := cmpf .olt main_v0 main_v1
  let main_c : IVec S_ 1 := constantI S_ 1 1#1
  let main_v3 : IVec S_ 1 := (fun x v => Host.reduce IntOp.andi x v reducesTo_S32x1x1024x1024_S_d0_1_2_3 h_S_) main_v2 main_c
  main_v3
-- ==== Kernel.lean ====
abbrev S32x1x1024x1024 : Shape := ⟨4, ![32, 1, 1024, 1024]⟩
abbrev S2x1x1 : Shape := ⟨3, ![2, 1, 1]⟩
abbrev S1x1x1024x1024 : Shape := ⟨4, ![1, 1, 1024, 1024]⟩
abbrev S1x1x1 : Shape := ⟨3, ![1, 1, 1]⟩
abbrev S1x1 : Shape := ⟨2, ![1, 1]⟩
abbrev S1x1x128x1024 : Shape := ⟨4, ![1, 1, 128, 1024]⟩
abbrev S128x1024 : Shape := ⟨2, ![128, 1024]⟩
abbrev S126x1022 : Shape := ⟨2, ![126, 1022]⟩
abbrev S126 : Shape := ⟨1, ![126]⟩
abbrev S126x1 : Shape := ⟨2, ![126, 1]⟩
abbrev S1 : Shape := ⟨1, ![1]⟩
abbrev S1x1x16x1024 : Shape := ⟨4, ![1, 1, 16, 1024]⟩
abbrev S16x1024 : Shape := ⟨2, ![16, 1024]⟩
abbrev S14x1022 : Shape := ⟨2, ![14, 1022]⟩
abbrev S14 : Shape := ⟨1, ![14]⟩
abbrev S14x1 : Shape := ⟨2, ![14, 1]⟩
abbrev S_ : Shape := ⟨0, ![]⟩

abbrev nBuf : Space → Nat
  | .hbm => 10
  | .vmem => 8
  | .smem => 0
  | _ => 0

abbrev bufTy : (tb : Table) → Fin (tcTables nBuf tb) → BufTy
  | .hbm, ⟨0, _⟩ => ⟨S32x1x1024x1024, .f32⟩
  | .hbm, ⟨1, _⟩ => ⟨S2x1x1, .f32⟩
  | .hbm, ⟨2, _⟩ => ⟨S2x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x1, .f32⟩
  | .local _ .vmem, ⟨3, _⟩ => ⟨S1x1x1, .f32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | .local _ .vmem, ⟨7, _⟩ => ⟨S1x1, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v726 : BitVec 1 := Scalar.cmpi .eq arg1 c15_i32
  let v727 : BitVec 32 := Scalar.extui v726
  let c0_i32_181 : BitVec 32 := 0#32
  let v728 : BitVec 1 := Scalar.cmpi .ne v727 c0_i32_181
  v728

def cc0_transform_0 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1x1024x1024_S1x1x128x1024_0_0_0_0 : ∀ a, (![0, 0, 0, 0] : Fin 4 → Nat) a + S1x1x128x1024.size a ≤ S1x1x1024x1024.size a
  h_S1x1x128x1024 : 0 < S1x1x128x1024.numel
  shapeCasts_S1x1x128x1024_S128x1024 : S1x1x128x1024.ShapeCasts S128x1024
  slices_S128x1024_o1_2_S126x1022 : S128x1024.Slices ![1, 2] S126x1022
  slices_S128x1024_o1_0_S126x1022 : S128x1024.Slices ![1, 0] S126x1022
  slices_S128x1024_o2_1_S126x1022 : S128x1024.Slices ![2, 1] S126x1022
  slices_S128x1024_o0_1_S126x1022 : S128x1024.Slices ![0, 1] S126x1022
  slices_S128x1024_o2_2_S126x1022 : S128x1024.Slices ![2, 2] S126x1022
  slices_S128x1024_o2_0_S126x1022 : S128x1024.Slices ![2, 0] S126x1022
  slices_S128x1024_o0_2_S126x1022 : S128x1024.Slices ![0, 2] S126x1022
  slices_S128x1024_o0_0_S126x1022 : S128x1024.Slices ![0, 0] S126x1022
  slices_S128x1024_o1_1_S126x1022 : S128x1024.Slices ![1, 1] S126x1022
  natLt_1_32 : 1 < 32
  reduces_S126x1022_S126 : S126x1022.Reduces [1] S126
  shapeCasts_S126_S126x1 : S126.ShapeCasts S126x1
  reduces_S126x1_S1 : S126x1.Reduces [0] S1
  shapeCasts_S1_S1x1 : S1.ShapeCasts S1x1
  inb_S1x1x1024x1024_S1x1x128x1024_0_0_126_0 : ∀ a, (![0, 0, 126, 0] : Fin 4 → Nat) a + S1x1x128x1024.size a ≤ S1x1x1024x1024.size a
  inb_S1x1x1024x1024_S1x1x128x1024_0_0_252_0 : ∀ a, (![0, 0, 252, 0] : Fin 4 → Nat) a + S1x1x128x1024.size a ≤ S1x1x1024x1024.size a
  inb_S1x1x1024x1024_S1x1x128x1024_0_0_378_0 : ∀ a, (![0, 0, 378, 0] : Fin 4 → Nat) a + S1x1x128x1024.size a ≤ S1x1x1024x1024.size a
  inb_S1x1x1024x1024_S1x1x128x1024_0_0_504_0 : ∀ a, (![0, 0, 504, 0] : Fin 4 → Nat) a + S1x1x128x1024.size a ≤ S1x1x1024x1024.size a
  inb_S1x1x1024x1024_S1x1x128x1024_0_0_630_0 : ∀ a, (![0, 0, 630, 0] : Fin 4 → Nat) a + S1x1x128x1024.size a ≤ S1x1x1024x1024.size a
  inb_S1x1x1024x1024_S1x1x128x1024_0_0_756_0 : ∀ a, (![0, 0, 756, 0] : Fin 4 → Nat) a + S1x1x128x1024.size a ≤ S1x1x1024x1024.size a
  inb_S1x1x1024x1024_S1x1x128x1024_0_0_882_0 : ∀ a, (![0, 0, 882, 0] : Fin 4 → Nat) a + S1x1x128x1024.size a ≤ S1x1x1024x1024.size a
  inb_S1x1x1024x1024_S1x1x16x1024_0_0_1008_0 : ∀ a, (![0, 0, 1008, 0] : Fin 4 → Nat) a + S1x1x16x1024.size a ≤ S1x1x1024x1024.size a
  h_S1x1x16x1024 : 0 < S1x1x16x1024.numel
  shapeCasts_S1x1x16x1024_S16x1024 : S1x1x16x1024.ShapeCasts S16x1024
  slices_S16x1024_o1_2_S14x1022 : S16x1024.Slices ![1, 2] S14x1022
  slices_S16x1024_o1_0_S14x1022 : S16x1024.Slices ![1, 0] S14x1022
  slices_S16x1024_o2_1_S14x1022 : S16x1024.Slices ![2, 1] S14x1022
  slices_S16x1024_o0_1_S14x1022 : S16x1024.Slices ![0, 1] S14x1022
  slices_S16x1024_o2_2_S14x1022 : S16x1024.Slices ![2, 2] S14x1022
  slices_S16x1024_o2_0_S14x1022 : S16x1024.Slices ![2, 0] S14x1022
  slices_S16x1024_o0_2_S14x1022 : S16x1024.Slices ![0, 2] S14x1022
  slices_S16x1024_o0_0_S14x1022 : S16x1024.Slices ![0, 0] S14x1022
  slices_S16x1024_o1_1_S14x1022 : S16x1024.Slices ![1, 1] S14x1022
  reduces_S14x1022_S14 : S14x1022.Reduces [1] S14
  shapeCasts_S14_S14x1 : S14.ShapeCasts S14x1
  reduces_S14x1_S1 : S14x1.Reduces [0] S1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x1024.size a ≤ S32x1x1024x1024.size a
  hwx0_0 : ∀ i : grid0.Coords, EltTy.bits .f32 = 32 ∨ (Rect.block (s := S32x1x1024x1024) S1x1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1.size a ≤ S2x1x1.size a
  hwx0_1 : ∀ i : grid0.Coords, EltTy.bits .f32 = 32 ∨ (Rect.block (s := S2x1x1) S1x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg0) S1x1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x1x1024x1024 : Shape := ⟨4, ![32, 1, 1024, 1024]⟩
abbrev S32x1x1022x1022 : Shape := ⟨4, ![32, 1, 1022, 1022]⟩
abbrev S_ : Shape := ⟨0, ![]⟩

abbrev nBuf : Space → Nat
  | .hbm => 87
  | .vmem => 0
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1022x1022, .f32⟩
  | .hbm, ⟨2, _⟩ => ⟨S32x1x1022x1022, .f32⟩
  | .hbm, ⟨3, _⟩ => ⟨S32x1x1022x1022, .f32⟩
  | .hbm, ⟨4, _⟩ => ⟨S_, .f32⟩
  | .hbm, ⟨5, _⟩ => ⟨S32x1x1022x1022, .f32⟩
  | .hbm, ⟨6, _⟩ => ⟨S32x1x1022x1022, .f32⟩
  | .hbm, ⟨7, _⟩ => ⟨S32x1x1022x1022, .f32⟩
  | .hbm, ⟨8, _⟩ => ⟨S32x1x1022x1022, .f32⟩
  | .hbm, ⟨9, _⟩ => ⟨S32x1x1022x1022, .f32⟩
  | .hbm, ⟨10, _⟩ => ⟨S_, .f32⟩
  | .hbm, ⟨11, _⟩ => ⟨S32x1x1022x1022, .f32⟩
  | .hbm, ⟨12, _⟩ => ⟨S32x1x1022x1022, .f32⟩
  | .hbm, ⟨13, _⟩ => ⟨S32x1x1022x1022, .f32⟩
  | .hbm, ⟨14, _⟩ => ⟨S32x1x1022x1022, .f32⟩
  | .hbm, ⟨15, _⟩ => ⟨S32x1x1022x1022, .f32⟩
  | .hbm, ⟨16, _⟩ => ⟨S32x1x1022x1022, .f32⟩
  | .hbm, ⟨17, _⟩ => ⟨S32x1x1022x1022, .f32⟩
  | .hbm, ⟨18, _⟩ => ⟨S32x1x1022x1022, .f32⟩
  | .hbm, ⟨19, _⟩ => ⟨S32x1x1022x1022, .f32⟩
  | .hbm, ⟨20, _⟩ => ⟨S_, .f32⟩
  | .hbm, ⟨21, _⟩ => ⟨S32x1x1022x1022, .f32⟩
  | .hbm, ⟨22, _⟩ => ⟨S32x1x1022x1022, .f32⟩
  | .hbm, ⟨23, _⟩ => ⟨S32x1x1022x1022, .f32⟩
  | .hbm, ⟨24, _⟩ => ⟨S32x1x1022x1022, .f32⟩
  | .hbm, ⟨25, _⟩ => ⟨S_, .f32⟩
  | .hbm, ⟨26, _⟩ => ⟨S32x1x1022x1022, .f32⟩
  | .hbm, ⟨27, _⟩ => ⟨S32x1x1022x1022, .f32⟩
  | .hbm, ⟨28, _⟩ => ⟨S32x1x1022x1022, .f32⟩
  | .hbm, ⟨29, _⟩ => ⟨S32x1x1022x1022, .f32⟩
  | .hbm, ⟨30, _⟩ => ⟨S32x1x1022x1022, .f32⟩
  | .hbm, ⟨31, _⟩ => ⟨S32x1x1022x1022, .f32⟩
  | .hbm, ⟨32, _⟩ => ⟨S32x1x1022x1022, .f32⟩
  | .hbm, ⟨33, _⟩ => ⟨S32x1x1022x1022, .f32⟩
  | .hbm, ⟨34, _⟩ => ⟨S32x1x1022x1022, .f32⟩
  | .hbm, ⟨35, _⟩ => ⟨S32x1x1022x1022, .f32⟩
  | .hbm, ⟨36, _⟩ => ⟨S32x1x1022x1022, .f32⟩
  | .hbm, ⟨37, _⟩ => ⟨S_, .f32⟩
  | .hbm, ⟨38, _⟩ => ⟨S32x1x1022x1022, .f32⟩
  | .hbm, ⟨39, _⟩ => ⟨S32x1x1022x1022, .f32⟩
  | .hbm, ⟨40, _⟩ => ⟨S_, .f32⟩
  | .hbm, ⟨41, _⟩ => ⟨S32x1x1022x1022, .f32⟩
  | .hbm, ⟨42, _⟩ => ⟨S32x1x1022x1022, .f32⟩
  | .hbm, ⟨43, _⟩ => ⟨S32x1x1022x1022, .f32⟩
  | .hbm, ⟨44, _⟩ => ⟨S_, .f32⟩
  | .hbm, ⟨45, _⟩ => ⟨S32x1x1022x1022, .f32⟩
  | .hbm, ⟨46, _⟩ => ⟨S32x1x1022x1022, .f32⟩
  | .hbm, ⟨47, _⟩ => ⟨S32x1x1022x1022, .f32⟩
  | .hbm, ⟨48, _⟩ => ⟨S_, .f32⟩
  | .hbm, ⟨49, _⟩ => ⟨S32x1x1022x1022, .f32⟩
  | .hbm, ⟨50, _⟩ => ⟨S32x1x1022x1022, .f32⟩
  | .hbm, ⟨51, _⟩ => ⟨S_, .f32⟩
  | .hbm, ⟨52, _⟩ => ⟨S32x1x1022x1022, .f32⟩
  | .hbm, ⟨53, _⟩ => ⟨S32x1x1022x1022, .f32⟩
  | .hbm, ⟨54, _⟩ => ⟨S32x1x1022x1022, .f32⟩
  | .hbm, ⟨55, _⟩ => ⟨S32x1x1022x1022, .f32⟩
  | .hbm, ⟨56, _⟩ => ⟨S32x1x1022x1022, .f32⟩
  | .hbm, ⟨57, _⟩ => ⟨S_, .f32⟩
  | .hbm, ⟨58, _⟩ => ⟨S32x1x1022x1022, .f32⟩
  | .hbm, ⟨59, _⟩ => ⟨S32x1x1022x1022, .i1⟩
  | .hbm, ⟨60, _⟩ => ⟨S32x1x1022x1022, .f32⟩
  | .hbm, ⟨61, _⟩ => ⟨S32x1x1022x1022, .f32⟩
  | .hbm, ⟨62, _⟩ => ⟨S_, .f32⟩
  | .hbm, ⟨63, _⟩ => ⟨S32x1x1022x1022, .f32⟩
  | .hbm, ⟨64, _⟩ => ⟨S32x1x1022x1022, .i1⟩
  | .hbm, ⟨65, _⟩ => ⟨S32x1x1022x1022, .i1⟩
  | .hbm, ⟨66, _⟩ => ⟨S32x1x1022x1022, .f32⟩
  | .hbm, ⟨67, _⟩ => ⟨S32x1x1022x1022, .f32⟩
  | .hbm, ⟨68, _⟩ => ⟨S_, .f32⟩
  | .hbm, ⟨69, _⟩ => ⟨S32x1x1022x1022, .f32⟩
  | .hbm, ⟨70, _⟩ => ⟨S32x1x1022x1022, .i1⟩
  | .hbm, ⟨71, _⟩ => ⟨S32x1x1022x1022, .i1⟩
  | .hbm, ⟨72, _⟩ => ⟨S32x1x1022x1022, .f32⟩
  | .hbm, ⟨73, _⟩ => ⟨S32x1x1022x1022, .f32⟩
  | .hbm, ⟨74, _⟩ => ⟨S_, .f32⟩
  | .hbm, ⟨75, _⟩ => ⟨S32x1x1022x1022, .f32⟩
  | .hbm, ⟨76, _⟩ => ⟨S32x1x1022x1022, .i1⟩
  | .hbm, ⟨77, _⟩ => ⟨S32x1x1022x1022, .i1⟩
  | .hbm, ⟨78, _⟩ => ⟨S32x1x1022x1022, .f32⟩
  | .hbm, ⟨79, _⟩ => ⟨S32x1x1022x1022, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_1 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_2 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_3 : Ref sig .tc := ⟨.hbm, 37, rfl⟩
abbrev main_v32 : Ref sig .tc := ⟨.hbm, 38, rfl⟩
abbrev main_v33 : Ref sig .tc := ⟨.hbm, 39, rfl⟩
abbrev main_cst_4 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_5 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_6 : Ref sig .tc := ⟨.hbm, 48, rfl⟩
abbrev main_v40 : Ref sig .tc := ⟨.hbm, 49, rfl⟩
abbrev main_v41 : Ref sig .tc := ⟨.hbm, 50, rfl⟩
abbrev main_call0_cst : Ref sig .tc := ⟨.hbm, 51, rfl⟩
abbrev main_call0_v0 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_9 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_10 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_11 : Ref sig .tc := ⟨.hbm, 80, rfl⟩
abbrev main_v65 : Ref sig .tc := ⟨.hbm, 81, rfl⟩
abbrev main_cst_12 : Ref sig .tc := ⟨.hbm, 82, rfl⟩
abbrev main_v66 : Ref sig .tc := ⟨.hbm, 83, rfl⟩
abbrev main_cst_13 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]

class Facts₀ : Prop where
  slices_S32x1x1024x1024_S32x1x1022x1022_0_0_1_2 : S32x1x1024x1024.Slices ![0, 0, 1, 2] S32x1x1022x1022
  slices_S32x1x1024x1024_S32x1x1022x1022_0_0_1_0 : S32x1x1024x1024.Slices ![0, 0, 1, 0] S32x1x1022x1022
  bcast_S_S32x1x1022x1022 : S_.BroadcastsInDim S32x1x1022x1022 (![] : Fin 0 → Fin S32x1x1022x1022.rank)
  slices_S32x1x1024x1024_S32x1x1022x1022_0_0_2_1 : S32x1x1024x1024.Slices ![0, 0, 2, 1] S32x1x1022x1022
  slices_S32x1x1024x1024_S32x1x1022x1022_0_0_0_1 : S32x1x1024x1024.Slices ![0, 0, 0, 1] S32x1x1022x1022
  slices_S32x1x1024x1024_S32x1x1022x1022_0_0_2_2 : S32x1x1024x1024.Slices ![0, 0, 2, 2] S32x1x1022x1022
  slices_S32x1x1024x1024_S32x1x1022x1022_0_0_2_0 : S32x1x1024x1024.Slices ![0, 0, 2, 0] S32x1x1022x1022
  slices_S32x1x1024x1024_S32x1x1022x1022_0_0_0_2 : S32x1x1024x1024.Slices ![0, 0, 0, 2] S32x1x1022x1022
  slices_S32x1x1024x1024_S32x1x1022x1022_0_0_0_0 : S32x1x1024x1024.Slices ![0, 0, 0, 0] S32x1x1022x1022
  slices_S32x1x1024x1024_S32x1x1022x1022_0_0_1_1 : S32x1x1024x1024.Slices ![0, 0, 1, 1] S32x1x1022x1022
  reducesTo_S32x1x1022x1022_S_d0_1_2_3 : S32x1x1022x1022.ReducesTo [0, 1, 2, 3] S_
  h_S_ : 0 < S_.numel

variable [Facts₀]

class Facts : Prop extends Facts₀ where

variable [Facts]
-- ==== Proof.Chunk.lean ====
/-
  The arithmetic one window of rows goes through, as functions of the window.

  The kernel walks an image in nine windows: eight of 128 rows (126 output rows each) and a last one of 16 rows (14 output
  rows). Every window goes through the same operations; they are written here once per window height, in the kernel's own
  operations, generic in the float instance, so that each window's part of the kernel's value is an instance of them.
-/
import proofs.«166240_j2757369004563_1_alg».proof.Proof.Gen.KernelIdeal

noncomputable section

namespace Cert.KernelIdeal.Chunk

open Idealize.ShloMosaic Idealize.SL.Sem Cert.KernelIdeal.Gen

variable {F : FTy → Type} [FloatOps F] [Named F]

/-- The curvature num / (den + eps) at every interior pixel of a window of 128 rows: the three differences scaled by the
    named reciprocals, the cubic form in them, and the quotient by s * sqrt s + eps. -/
noncomputable def ratio126 (x : FVec F S128x1024 .f32) : FVec F S126x1022 .f32 :=
  have v7 : FVec F S126x1022 .f32 := extractStridedSlice S126x1022 ![1, 2] x slices_S128x1024_o1_2_S126x1022
  have v8 : FVec F S126x1022 .f32 := extractStridedSlice S126x1022 ![1, 0] x slices_S128x1024_o1_0_S126x1022
  have v9 : FVec F S126x1022 .f32 := subf v7 v8
  have cst_5 : F .f32 := Named.named κ "inv2h" 0x410325C5#32
  have v10 : FVec F S126x1022 .f32 := broadcast S126x1022 cst_5
  have v11 : FVec F S126x1022 .f32 := mulf v9 v10
  have v12 : FVec F S126x1022 .f32 := extractStridedSlice S126x1022 ![2, 1] x slices_S128x1024_o2_1_S126x1022
  have v13 : FVec F S126x1022 .f32 := extractStridedSlice S126x1022 ![0, 1] x slices_S128x1024_o0_1_S126x1022
  have v14 : FVec F S126x1022 .f32 := subf v12 v13
  have cst_6 : F .f32 := Named.named κ "inv2h" 0x410325C5#32
  have v15 : FVec F S126x1022 .f32 := broadcast S126x1022 cst_6
  have v16 : FVec F S126x1022 .f32 := mulf v14 v15
  have v17 : FVec F S126x1022 .f32 := extractStridedSlice S126x1022 ![2, 2] x slices_S128x1024_o2_2_S126x1022
  have v18 : FVec F S126x1022 .f32 := extractStridedSlice S126x1022 ![2, 0] x slices_S128x1024_o2_0_S126x1022
  have v19 : FVec F S126x1022 .f32 := subf v17 v18
  have v20 : FVec F S126x1022 .f32 := extractStridedSlice S126x1022 ![0, 2] x slices_S128x1024_o0_2_S126x1022
  have v21 : FVec F S126x1022 .f32 := subf v19 v20
  have v22 : FVec F S126x1022 .f32 := extractStridedSlice S126x1022 ![0, 0] x slices_S128x1024_o0_0_S126x1022
  have v23 : FVec F S126x1022 .f32 := addf v21 v22
  have cst_7 : F .f32 := Named.named κ "inv4h2" 0x42865F5B#32
  have v24 : FVec F S126x1022 .f32 := broadcast S126x1022 cst_7
  have v25 : FVec F S126x1022 .f32 := mulf v23 v24
  have v26 : FVec F S126x1022 .f32 := mulf v25 v16
  have v27 : FVec F S126x1022 .f32 := mulf v26 v16
  have cst_8 : F .f32 := Scalar.ofBits .f32 0x40000000#32
  have v28 : FVec F S126x1022 .f32 := broadcast S126x1022 cst_8
  have v29 : FVec F S126x1022 .f32 := mulf v28 v16
  have v30 : FVec F S126x1022 .f32 := mulf v29 v11
  have v31 : FVec F S126x1022 .f32 := mulf v30 v25
  have v32 : FVec F S126x1022 .f32 := subf v27 v31
  have v33 : FVec F S126x1022 .f32 := mulf v25 v11
  have v34 : FVec F S126x1022 .f32 := mulf v33 v11
  have v35 : FVec F S126x1022 .f32 := addf v32 v34
  have v36 : FVec F S126x1022 .f32 := mulf v11 v11
  have v37 : FVec F S126x1022 .f32 := mulf v16 v16
  have v38 : FVec F S126x1022 .f32 := addf v36 v37
  have v39 : FVec F S126x1022 .f32 := sqrt v38
  have v40 : FVec F S126x1022 .f32 := mulf v38 v39
  have cst_9 : F .f32 := Scalar.ofBits .f32 0x322BCC77#32
  have v41 : FVec F S126x1022 .f32 := broadcast S126x1022 cst_9
  have v42 : FVec F S126x1022 .f32 := addf v40 v41
  have v43 : FVec F S126x1022 .f32 := divf v35 v42
  v43

/-- max((v * 1)^2 - 1, 0), entry by entry. -/
noncomputable def excess126 (v43 : FVec F S126x1022 .f32) : FVec F S126x1022 .f32 :=
  have cst_10 : F .f32 := Scalar.ofBits .f32 0x3F800000#32
  have v44 : FVec F S126x1022 .f32 := broadcast S126x1022 cst_10
  have v45 : FVec F S126x1022 .f32 := mulf v43 v44
  have v46 : FVec F S126x1022 .f32 := mulf v45 v45
  have cst_11 : F .f32 := Scalar.ofBits .f32 0x3F800000#32
  have v47 : FVec F S126x1022 .f32 := broadcast S126x1022 cst_11
  have v48 : FVec F S126x1022 .f32 := subf v46 v47
  have cst_12 : F .f32 := Scalar.ofBits .f32 0x00000000#32
  have v49 : FVec F S126x1022 .f32 := broadcast S126x1022 cst_12
  have v50 : FVec F S126x1022 .f32 := maximumf v48 v49
  v50

/-- The zero-crossing flag of every interior pixel of the window, as a float 0 or 1. -/
noncomputable def flag126 (x : FVec F S128x1024 .f32) : FVec F S126x1022 .f32 :=
  have v51 : FVec F S126x1022 .f32 := extractStridedSlice S126x1022 ![1, 1] x slices_S128x1024_o1_1_S126x1022
  have v52 : FVec F S126x1022 .f32 := extractStridedSlice S126x1022 ![1, 2] x slices_S128x1024_o1_2_S126x1022
  have v53 : FVec F S126x1022 .f32 := mulf v51 v52
  have cst_13 : F .f32 := Scalar.ofBits .f32 0x00000000#32
  have v54 : FVec F S126x1022 .f32 := broadcast S126x1022 cst_13
  have v55 : IVec S126x1022 1 := cmpf .olt v53 v54
  have v56 : FVec F S126x1022 .f32 := extractStridedSlice S126x1022 ![1, 0] x slices_S128x1024_o1_0_S126x1022
  have v57 : FVec F S126x1022 .f32 := mulf v51 v56
  have cst_14 : F .f32 := Scalar.ofBits .f32 0x00000000#32
  have v58 : FVec F S126x1022 .f32 := broadcast S126x1022 cst_14
  have v59 : IVec S126x1022 1 := cmpf .olt v57 v58
  have v60 : IVec S126x1022 1 := ori v55 v59
  have v61 : FVec F S126x1022 .f32 := extractStridedSlice S126x1022 ![2, 1] x slices_S128x1024_o2_1_S126x1022
  have v62 : FVec F S126x1022 .f32 := mulf v51 v61
  have cst_15 : F .f32 := Scalar.ofBits .f32 0x00000000#32
  have v63 : FVec F S126x1022 .f32 := broadcast S126x1022 cst_15
  have v64 : IVec S126x1022 1 := cmpf .olt v62 v63
  have v65 : IVec S126x1022 1 := ori v60 v64
  have v66 : FVec F S126x1022 .f32 := extractStridedSlice S126x1022 ![0, 1] x slices_S128x1024_o0_1_S126x1022
  have v67 : FVec F S126x1022 .f32 := mulf v51 v66
  have cst_16 : F .f32 := Scalar.ofBits .f32 0x00000000#32
  have v68 : FVec F S126x1022 .f32 := broadcast S126x1022 cst_16
  have v69 : IVec S126x1022 1 := cmpf .olt v67 v68
  have v70 : IVec S126x1022 1 := ori v65 v69
  have v71 : IVec S126x1022 32 := extui 32 v70 natLt_1_32
  have v72 : FVec F S126x1022 .f32 := sitofp .f32 v71
  v72

/-- The window's sum of flag * excess: along each row, then down the rows. -/
noncomputable def loss126 (x : FVec F S128x1024 .f32) : FVec F S1x1 .f32 :=
  have v73 : FVec F S126x1022 .f32 := mulf (flag126 x) (excess126 (ratio126 x))
  have v74 : FVec F S126 .f32 := multiReduction .add [1] S126 v73 0x00000000#32 reduces_S126x1022_S126 (.inl rfl) rfl
  have v75 : FVec F S126x1 .f32 := shapeCast S126x1 v74 shapeCasts_S126_S126x1
  have v76 : FVec F S1 .f32 := multiReduction .add [0] S1 v75 0x00000000#32 reduces_S126x1_S1 (.inl rfl) rfl
  have v77 : FVec F S1x1 .f32 := shapeCast S1x1 v76 shapeCasts_S1_S1x1
  v77

/-- The window's count of flagged pixels: along each row, then down the rows. -/
noncomputable def count126 (x : FVec F S128x1024 .f32) : FVec F S1x1 .f32 :=
  have v78 : FVec F S126 .f32 := multiReduction .add [1] S126 (flag126 x) 0x00000000#32 reduces_S126x1022_S126 (.inl rfl) rfl
  have v79 : FVec F S126x1 .f32 := shapeCast S126x1 v78 shapeCasts_S126_S126x1
  have v80 : FVec F S1 .f32 := multiReduction .add [0] S1 v79 0x00000000#32 reduces_S126x1_S1 (.inl rfl) rfl
  have v81 : FVec F S1x1 .f32 := shapeCast S1x1 v80 shapeCasts_S1_S1x1
  v81

/-- The curvature num / (den + eps) at every interior pixel of a window of 16 rows: the three differences scaled by the
    named reciprocals, the cubic form in them, and the quotient by s * sqrt s + eps. -/
noncomputable def ratio14 (x : FVec F S16x1024 .f32) : FVec F S14x1022 .f32 :=
  have v7 : FVec F S14x1022 .f32 := extractStridedSlice S14x1022 ![1, 2] x slices_S16x1024_o1_2_S14x1022
  have v8 : FVec F S14x1022 .f32 := extractStridedSlice S14x1022 ![1, 0] x slices_S16x1024_o1_0_S14x1022
  have v9 : FVec F S14x1022 .f32 := subf v7 v8
  have cst_5 : F .f32 := Named.named κ "inv2h" 0x410325C5#32
  have v10 : FVec F S14x1022 .f32 := broadcast S14x1022 cst_5
  have v11 : FVec F S14x1022 .f32 := mulf v9 v10
  have v12 : FVec F S14x1022 .f32 := extractStridedSlice S14x1022 ![2, 1] x slices_S16x1024_o2_1_S14x1022
  have v13 : FVec F S14x1022 .f32 := extractStridedSlice S14x1022 ![0, 1] x slices_S16x1024_o0_1_S14x1022
  have v14 : FVec F S14x1022 .f32 := subf v12 v13
  have cst_6 : F .f32 := Named.named κ "inv2h" 0x410325C5#32
  have v15 : FVec F S14x1022 .f32 := broadcast S14x1022 cst_6
  have v16 : FVec F S14x1022 .f32 := mulf v14 v15
  have v17 : FVec F S14x1022 .f32 := extractStridedSlice S14x1022 ![2, 2] x slices_S16x1024_o2_2_S14x1022
  have v18 : FVec F S14x1022 .f32 := extractStridedSlice S14x1022 ![2, 0] x slices_S16x1024_o2_0_S14x1022
  have v19 : FVec F S14x1022 .f32 := subf v17 v18
  have v20 : FVec F S14x1022 .f32 := extractStridedSlice S14x1022 ![0, 2] x slices_S16x1024_o0_2_S14x1022
  have v21 : FVec F S14x1022 .f32 := subf v19 v20
  have v22 : FVec F S14x1022 .f32 := extractStridedSlice S14x1022 ![0, 0] x slices_S16x1024_o0_0_S14x1022
  have v23 : FVec F S14x1022 .f32 := addf v21 v22
  have cst_7 : F .f32 := Named.named κ "inv4h2" 0x42865F5B#32
  have v24 : FVec F S14x1022 .f32 := broadcast S14x1022 cst_7
  have v25 : FVec F S14x1022 .f32 := mulf v23 v24
  have v26 : FVec F S14x1022 .f32 := mulf v25 v16
  have v27 : FVec F S14x1022 .f32 := mulf v26 v16
  have cst_8 : F .f32 := Scalar.ofBits .f32 0x40000000#32
  have v28 : FVec F S14x1022 .f32 := broadcast S14x1022 cst_8
  have v29 : FVec F S14x1022 .f32 := mulf v28 v16
  have v30 : FVec F S14x1022 .f32 := mulf v29 v11
  have v31 : FVec F S14x1022 .f32 := mulf v30 v25
  have v32 : FVec F S14x1022 .f32 := subf v27 v31
  have v33 : FVec F S14x1022 .f32 := mulf v25 v11
  have v34 : FVec F S14x1022 .f32 := mulf v33 v11
  have v35 : FVec F S14x1022 .f32 := addf v32 v34
  have v36 : FVec F S14x1022 .f32 := mulf v11 v11
  have v37 : FVec F S14x1022 .f32 := mulf v16 v16
  have v38 : FVec F S14x1022 .f32 := addf v36 v37
  have v39 : FVec F S14x1022 .f32 := sqrt v38
  have v40 : FVec F S14x1022 .f32 := mulf v38 v39
  have cst_9 : F .f32 := Scalar.ofBits .f32 0x322BCC77#32
  have v41 : FVec F S14x1022 .f32 := broadcast S14x1022 cst_9
  have v42 : FVec F S14x1022 .f32 := addf v40 v41
  have v43 : FVec F S14x1022 .f32 := divf v35 v42
  v43

/-- max((v * 1)^2 - 1, 0), entry by entry. -/
noncomputable def excess14 (v43 : FVec F S14x1022 .f32) : FVec F S14x1022 .f32 :=
  have cst_10 : F .f32 := Scalar.ofBits .f32 0x3F800000#32
  have v44 : FVec F S14x1022 .f32 := broadcast S14x1022 cst_10
  have v45 : FVec F S14x1022 .f32 := mulf v43 v44
  have v46 : FVec F S14x1022 .f32 := mulf v45 v45
  have cst_11 : F .f32 := Scalar.ofBits .f32 0x3F800000#32
  have v47 : FVec F S14x1022 .f32 := broadcast S14x1022 cst_11
  have v48 : FVec F S14x1022 .f32 := subf v46 v47
  have cst_12 : F .f32 := Scalar.ofBits .f32 0x00000000#32
  have v49 : FVec F S14x1022 .f32 := broadcast S14x1022 cst_12
  have v50 : FVec F S14x1022 .f32 := maximumf v48 v49
  v50

/-- The zero-crossing flag of every interior pixel of the window, as a float 0 or 1. -/
noncomputable def flag14 (x : FVec F S16x1024 .f32) : FVec F S14x1022 .f32 :=
  have v51 : FVec F S14x1022 .f32 := extractStridedSlice S14x1022 ![1, 1] x slices_S16x1024_o1_1_S14x1022
  have v52 : FVec F S14x1022 .f32 := extractStridedSlice S14x1022 ![1, 2] x slices_S16x1024_o1_2_S14x1022
  have v53 : FVec F S14x1022 .f32 := mulf v51 v52
  have cst_13 : F .f32 := Scalar.ofBits .f32 0x00000000#32
  have v54 : FVec F S14x1022 .f32 := broadcast S14x1022 cst_13
  have v55 : IVec S14x1022 1 := cmpf .olt v53 v54
  have v56 : FVec F S14x1022 .f32 := extractStridedSlice S14x1022 ![1, 0] x slices_S16x1024_o1_0_S14x1022
  have v57 : FVec F S14x1022 .f32 := mulf v51 v56
  have cst_14 : F .f32 := Scalar.ofBits .f32 0x00000000#32
  have v58 : FVec F S14x1022 .f32 := broadcast S14x1022 cst_14
  have v59 : IVec S14x1022 1 := cmpf .olt v57 v58
  have v60 : IVec S14x1022 1 := ori v55 v59
  have v61 : FVec F S14x1022 .f32 := extractStridedSlice S14x1022 ![2, 1] x slices_S16x1024_o2_1_S14x1022
  have v62 : FVec F S14x1022 .f32 := mulf v51 v61
  have cst_15 : F .f32 := Scalar.ofBits .f32 0x00000000#32
  have v63 : FVec F S14x1022 .f32 := broadcast S14x1022 cst_15
  have v64 : IVec S14x1022 1 := cmpf .olt v62 v63
  have v65 : IVec S14x1022 1 := ori v60 v64
  have v66 : FVec F S14x1022 .f32 := extractStridedSlice S14x1022 ![0, 1] x slices_S16x1024_o0_1_S14x1022
  have v67 : FVec F S14x1022 .f32 := mulf v51 v66
  have cst_16 : F .f32 := Scalar.ofBits .f32 0x00000000#32
  have v68 : FVec F S14x1022 .f32 := broadcast S14x1022 cst_16
  have v69 : IVec S14x1022 1 := cmpf .olt v67 v68
  have v70 : IVec S14x1022 1 := ori v65 v69
  have v71 : IVec S14x1022 32 := extui 32 v70 natLt_1_32
  have v72 : FVec F S14x1022 .f32 := sitofp .f32 v71
  v72

/-- The window's sum of flag * excess: along each row, then down the rows. -/
noncomputable def loss14 (x : FVec F S16x1024 .f32) : FVec F S1x1 .f32 :=
  have v73 : FVec F S14x1022 .f32 := mulf (flag14 x) (excess14 (ratio14 x))
  have v74 : FVec F S14 .f32 := multiReduction .add [1] S14 v73 0x00000000#32 reduces_S14x1022_S14 (.inl rfl) rfl
  have v75 : FVec F S14x1 .f32 := shapeCast S14x1 v74 shapeCasts_S14_S14x1
  have v76 : FVec F S1 .f32 := multiReduction .add [0] S1 v75 0x00000000#32 reduces_S14x1_S1 (.inl rfl) rfl
  have v77 : FVec F S1x1 .f32 := shapeCast S1x1 v76 shapeCasts_S1_S1x1
  v77

/-- The window's count of flagged pixels: along each row, then down the rows. -/
noncomputable def count14 (x : FVec F S16x1024 .f32) : FVec F S1x1 .f32 :=
  have v78 : FVec F S14 .f32 := multiReduction .add [1] S14 (flag14 x) 0x00000000#32 reduces_S14x1022_S14 (.inl rfl) rfl
  have v79 : FVec F S14x1 .f32 := shapeCast S14x1 v78 shapeCasts_S14_S14x1
  have v80 : FVec F S1 .f32 := multiReduction .add [0] S1 v79 0x00000000#32 reduces_S14x1_S1 (.inl rfl) rfl
  have v81 : FVec F S1x1 .f32 := shapeCast S1x1 v80 shapeCasts_S1_S1x1
  v81

end Cert.KernelIdeal.Chunk

end
-- ==== Proof.Pieces.lean ====
/-
  What the kernel body leaves in its two running sums and in its two output blocks, as functions of the image block it was
  handed and of what the running sums held before.

  The body walks the 1024 x 1024 image in nine windows of rows (rows 0-127, 126-253, ..., 882-1009, then 1008-1023), adds
  each window's sum of flag * excess into one running sum and its count of flags into another, and finally adds the two
  totals into the two carried accumulators. At the first image of a core's run the accumulators are zeroed first; at the
  last one they are also copied to the two output blocks.
-/
import proofs.«166240_j2757369004563_1_alg».proof.Proof.Gen.KernelIdeal.Frame
import proofs.«166240_j2757369004563_1_alg».proof.Proof.Chunk
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Chunk

variable {F : FTy → Type} [FloatOps F] [Named F]

/-- Rows o .. o+127 of the image block, as a 128 x 1024 array. -/
def win128 (x0 : Vec F S1x1x1024x1024 .f32) (o : ℕ) (inb : ∀ a, (![0, 0, o, 0] : Fin 4 → ℕ) a + S1x1x128x1024.size a ≤ S1x1x1024x1024.size a) :
    FVec F S128x1024 .f32 :=
  shapeCast S128x1024 (View.ld x0 (Rect.unit (s := S1x1x1024x1024) ![0, 0, o, 0] S1x1x128x1024.size inb)) shapeCasts_S1x1x128x1024_S128x1024

/-- Rows o .. o+15 of the image block, as a 16 x 1024 array. -/
def win16 (x0 : Vec F S1x1x1024x1024 .f32) (o : ℕ) (inb : ∀ a, (![0, 0, o, 0] : Fin 4 → ℕ) a + S1x1x16x1024.size a ≤ S1x1x1024x1024.size a) :
    FVec F S16x1024 .f32 :=
  shapeCast S16x1024 (View.ld x0 (Rect.unit (s := S1x1x1024x1024) ![0, 0, o, 0] S1x1x16x1024.size inb)) shapeCasts_S1x1x16x1024_S16x1024

/-- The image's sum of flag * excess: zero, plus the nine windows' sums in order. -/
def imageLossK (x0 : Vec F S1x1x1024x1024 .f32) : FVec F S1x1 .f32 :=
  addf (addf (addf (addf (addf (addf (addf (addf (addf (k0_pay7 (F := F))
    (loss126 (win128 x0 0 inb_S1x1x1024x1024_S1x1x128x1024_0_0_0_0)))
    (loss126 (win128 x0 126 inb_S1x1x1024x1024_S1x1x128x1024_0_0_126_0)))
    (loss126 (win128 x0 252 inb_S1x1x1024x1024_S1x1x128x1024_0_0_252_0)))
    (loss126 (win128 x0 378 inb_S1x1x1024x1024_S1x1x128x1024_0_0_378_0)))
    (loss126 (win128 x0 504 inb_S1x1x1024x1024_S1x1x128x1024_0_0_504_0)))
    (loss126 (win128 x0 630 inb_S1x1x1024x1024_S1x1x128x1024_0_0_630_0)))
    (loss126 (win128 x0 756 inb_S1x1x1024x1024_S1x1x128x1024_0_0_756_0)))
    (loss126 (win128 x0 882 inb_S1x1x1024x1024_S1x1x128x1024_0_0_882_0)))
    (loss14 (win16 x0 1008 inb_S1x1x1024x1024_S1x1x16x1024_0_0_1008_0))

theorem hz2 : (![0, 0] : Fin 2 → ℕ) = fun _ => 0 := by funext a; fin_cases a <;> rfl
theorem hz3 : (![0, 0, 0] : Fin 3 → ℕ) = fun _ => 0 := by funext a; fin_cases a <;> rfl

/-- The image's count of flagged pixels: zero, plus the nine windows' counts in order. -/
def imageCountK (x0 : Vec F S1x1x1024x1024 .f32) : FVec F S1x1 .f32 :=
  addf (addf (addf (addf (addf (addf (addf (addf (addf (k0_pay8 (F := F))
    (count126 (win128 x0 0 inb_S1x1x1024x1024_S1x1x128x1024_0_0_0_0)))
    (count126 (win128 x0 126 inb_S1x1x1024x1024_S1x1x128x1024_0_0_126_0)))
    (count126 (win128 x0 252 inb_S1x1x1024x1024_S1x1x128x1024_0_0_252_0)))
    (count126 (win128 x0 378 inb_S1x1x1024x1024_S1x1x128x1024_0_0_378_0)))
    (count126 (win128 x0 504 inb_S1x1x1024x1024_S1x1x128x1024_0_0_504_0)))
    (count126 (win128 x0 630 inb_S1x1x1024x1024_S1x1x128x1024_0_0_630_0)))
    (count126 (win128 x0 756 inb_S1x1x1024x1024_S1x1x128x1024_0_0_756_0)))
    (count126 (win128 x0 882 inb_S1x1x1024x1024_S1x1x128x1024_0_0_882_0)))
    (count14 (win16 x0 1008 inb_S1x1x1024x1024_S1x1x16x1024_0_0_1008_0))

/-! ## A middle image: both sums added into what the accumulators held -/

set_option maxHeartbeats 4000000 in
theorem sout0_B_0_eq (c : Dev nD) (i : grid0.Coords) (arg2 : Memref sig .tc .vmem S1x1x1024x1024 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S1x1x1024x1024 .f32) (xs0 : Vec F S1x1 .f32) (xs1 : Vec F S1x1 .f32) :
    sout0_B_0 c i arg2 harg2 arg3 harg3 arg4 harg4 arg5 harg5 arg6 harg6 hc0 hc1 x0 xs0 xs1 = shapeCast S1x1 (addf xs0 (imageLossK x0)) shapeCasts_S1x1_S1x1 := by
  unfold sout0_B_0
  rw [View.read_writes_eq_canon _ _ _ (scover0_B_0 c i arg2 harg2 arg3 harg3 arg4 harg4 arg5 harg5 arg6 harg6 hc0 hc1 x0 xs0 xs1)]
  unfold kernelRun0_B
  dsimp only
  sl_unfold_words
  rw [View.canon_unit_zero hz2]
  simp only [View.readAt_eq_ld, harg2.read_unread, harg5.read_unread, View.ld_unit_zero (S := S1x1) hz2]
  rfl

set_option maxHeartbeats 4000000 in
theorem sout0_B_1_eq (c : Dev nD) (i : grid0.Coords) (arg2 : Memref sig .tc .vmem S1x1x1024x1024 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S1x1x1024x1024 .f32) (xs0 : Vec F S1x1 .f32) (xs1 : Vec F S1x1 .f32) :
    sout0_B_1 c i arg2 harg2 arg3 harg3 arg4 harg4 arg5 harg5 arg6 harg6 hc0 hc1 x0 xs0 xs1 = shapeCast S1x1 (addf xs1 (imageCountK x0)) shapeCasts_S1x1_S1x1 := by
  unfold sout0_B_1
  rw [View.read_writes_eq_canon _ _ _ (scover0_B_1 c i arg2 harg2 arg3 harg3 arg4 harg4 arg5 harg5 arg6 harg6 hc0 hc1 x0 xs0 xs1)]
  unfold kernelRun0_B
  dsimp only
  sl_unfold_words
  rw [View.canon_unit_zero hz2]
  simp only [View.readAt_eq_ld, harg2.read_unread, harg6.read_unread, View.ld_unit_zero (S := S1x1) hz2]
  rfl

/-! ## The last image of a core's run: the same, and the accumulators copied to the two output blocks -/

set_option maxHeartbeats 4000000 in
theorem sout0_C_0_eq (c : Dev nD) (i : grid0.Coords) (arg2 : Memref sig .tc .vmem S1x1x1024x1024 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S1x1x1024x1024 .f32) (xs0 : Vec F S1x1 .f32) (xs1 : Vec F S1x1 .f32) :
    sout0_C_0 c i arg2 harg2 arg3 harg3 arg4 harg4 arg5 harg5 arg6 harg6 hc0 hc1 x0 xs0 xs1 = shapeCast S1x1 (addf xs0 (imageLossK x0)) shapeCasts_S1x1_S1x1 := by
  unfold sout0_C_0
  rw [View.read_writes_eq_canon _ _ _ (scover0_C_0 c i arg2 harg2 arg3 harg3 arg4 harg4 arg5 harg5 arg6 harg6 hc0 hc1 x0 xs0 xs1)]
  unfold kernelRun0_C
  dsimp only
  sl_unfold_words
  rw [View.canon_unit_zero hz2]
  simp only [View.readAt_eq_ld, harg2.read_unread, harg5.read_unread, View.ld_unit_zero (S := S1x1) hz2]
  rfl

set_option maxHeartbeats 4000000 in
theorem sout0_C_1_eq (c : Dev nD) (i : grid0.Coords) (arg2 : Memref sig .tc .vmem S1x1x1024x1024 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S1x1x1024x1024 .f32) (xs0 : Vec F S1x1 .f32) (xs1 : Vec F S1x1 .f32) :
    sout0_C_1 c i arg2 harg2 arg3 harg3 arg4 harg4 arg5 harg5 arg6 harg6 hc0 hc1 x0 xs0 xs1 = shapeCast S1x1 (addf xs1 (imageCountK x0)) shapeCasts_S1x1_S1x1 := by
  unfold sout0_C_1
  rw [View.read_writes_eq_canon _ _ _ (scover0_C_1 c i arg2 harg2 arg3 harg3 arg4 harg4 arg5 harg5 arg6 harg6 hc0 hc1 x0 xs0 xs1)]
  unfold kernelRun0_C
  dsimp only
  sl_unfold_words
  rw [View.canon_unit_zero hz2]
  simp only [View.readAt_eq_ld, harg2.read_unread, harg6.read_unread, View.ld_unit_zero (S := S1x1) hz2]
  rfl

set_option maxHeartbeats 4000000 in
theorem out0_C_1_eq (c : Dev nD) (i : grid0.Coords) (arg2 : Memref sig .tc .vmem S1x1x1024x1024 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S1x1x1024x1024 .f32) (xs0 : Vec F S1x1 .f32) (xs1 : Vec F S1x1 .f32) :
    out0_C_1 c i arg2 harg2 arg3 harg3 arg4 harg4 arg5 harg5 arg6 harg6 hc0 hc1 x0 xs0 xs1 = shapeCast S1x1x1 (shapeCast S1x1 (addf xs0 (imageLossK x0)) shapeCasts_S1x1_S1x1) shapeCasts_S1x1_S1x1x1 := by
  unfold out0_C_1
  rw [View.read_writes_eq_canon _ _ _ (cover0_C_1 c i arg2 harg2 arg3 harg3 arg4 harg4 arg5 harg5 arg6 harg6 hc0 hc1 x0 xs0 xs1)]
  unfold kernelRun0_C
  dsimp only
  sl_unfold_words
  rw [View.canon_unit_zero hz3, View.readCov_unit_zero _ hz2]
  simp only [View.readAt_eq_ld, harg2.read_unread, harg5.read_unread, View.ld_unit_zero (S := S1x1) hz2]
  rfl

set_option maxHeartbeats 4000000 in
theorem out0_C_2_eq (c : Dev nD) (i : grid0.Coords) (arg2 : Memref sig .tc .vmem S1x1x1024x1024 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S1x1x1024x1024 .f32) (xs0 : Vec F S1x1 .f32) (xs1 : Vec F S1x1 .f32) :
    out0_C_2 c i arg2 harg2 arg3 harg3 arg4 harg4 arg5 harg5 arg6 harg6 hc0 hc1 x0 xs0 xs1 = shapeCast S1x1x1 (shapeCast S1x1 (addf xs1 (imageCountK x0)) shapeCasts_S1x1_S1x1) shapeCasts_S1x1_S1x1x1 := by
  unfold out0_C_2
  rw [View.read_writes_eq_canon _ _ _ (cover0_C_2 c i arg2 harg2 arg3 harg3 arg4 harg4 arg5 harg5 arg6 harg6 hc0 hc1 x0 xs0 xs1)]
  unfold kernelRun0_C
  dsimp only
  sl_unfold_words
  rw [View.canon_unit_zero hz3, View.readCov_unit_zero _ hz2]
  simp only [View.readAt_eq_ld, harg2.read_unread, harg6.read_unread, View.ld_unit_zero (S := S1x1) hz2]
  rfl

/-! ## The first image of a core's run: the accumulators zeroed first, then the sums added -/

set_option maxHeartbeats 4000000 in
theorem sout0_A_0_eq (c : Dev nD) (i : grid0.Coords) (arg2 : Memref sig .tc .vmem S1x1x1024x1024 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S1x1x1024x1024 .f32) :
    sout0_A_0 c i arg2 harg2 arg3 harg3 arg4 harg4 arg5 harg5 arg6 harg6 hc0 hc1 x0 = shapeCast S1x1 (addf (k0_pay5 (F := F)) (imageLossK x0)) shapeCasts_S1x1_S1x1 := by
  unfold sout0_A_0
  rw [View.read_writes_eq_canon _ _ _ (scover0_A_0 c i arg2 harg2 arg3 harg3 arg4 harg4 arg5 harg5 arg6 harg6 hc0 hc1 x0)]
  unfold kernelRun0_A
  dsimp only
  sl_unfold_words
  rw [View.canon_cons_unit_zero hz2, View.readCov_unit_zero _ hz2]
  simp only [View.readAt_eq_ld, harg2.read_unread]
  rfl

set_option maxHeartbeats 4000000 in
theorem sout0_A_1_eq (c : Dev nD) (i : grid0.Coords) (arg2 : Memref sig .tc .vmem S1x1x1024x1024 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S1x1x1024x1024 .f32) :
    sout0_A_1 c i arg2 harg2 arg3 harg3 arg4 harg4 arg5 harg5 arg6 harg6 hc0 hc1 x0 = shapeCast S1x1 (addf (k0_pay6 (F := F)) (imageCountK x0)) shapeCasts_S1x1_S1x1 := by
  unfold sout0_A_1
  rw [View.read_writes_eq_canon _ _ _ (scover0_A_1 c i arg2 harg2 arg3 harg3 arg4 harg4 arg5 harg5 arg6 harg6 hc0 hc1 x0)]
  unfold kernelRun0_A
  dsimp only
  sl_unfold_words
  rw [View.canon_cons_unit_zero hz2, View.readCov_unit_zero _ hz2]
  simp only [View.readAt_eq_ld, harg2.read_unread]
  rfl

end Cert.KernelIdeal.Gen

end
-- ==== Proof.Points.lean ====
/-
  What the two carried accumulators and the two output blocks hold after each grid point, on the extended reals.

  The grid's 32 points fall into two runs of sixteen. At the first point of a run the accumulators are set to zero and the
  image's two sums are added; at every later point the image's sums are added to what the point before left; at the last
  point of a run the accumulators are also copied to the two output blocks. So after point n the accumulators hold the
  sums, over the points of n's run up to n, of the per-image sums, and at the end of a run the output blocks hold the
  run's totals.
-/
import proofs.«166240_j2757369004563_1_alg».proof.Proof.Pieces
import Idealize.ShloMosaic.Lib.ValueIdx
import Idealize.ShloMosaic.Lib.Pipeline.Value

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)
open Cert.KernelIdeal.Chunk

variable (m : (ℓ : Loc nD τ sig) → Buf (Elt Ideal) ℓ)

/-- The kernel's sum of flag * excess over the image that grid point k is handed (zero past the grid). -/
def lossOf (c : Dev nD) (k : ℕ) : EReal :=
  if h : k < cfg0.N then imageLossK (F := Ideal) (iblk m c 0 ⟨k, h⟩) (ix2 0 0) else 0

/-- The kernel's count of flagged pixels of the image that grid point k is handed (zero past the grid). -/
def countOf (c : Dev nD) (k : ℕ) : EReal :=
  if h : k < cfg0.N then imageCountK (F := Ideal) (iblk m c 0 ⟨k, h⟩) (ix2 0 0) else 0

/-! ## One-element index sets, and one step of an accumulator -/

/-- A 1 x 1 array has one index. -/
theorem idx11 (y : S1x1.Idx) : y = ix2 (0 : Fin 1) (0 : Fin 1) := by
  funext a
  refine Fin.ext ?_
  match a with
  | ⟨0, _⟩ => have := idx2_lt0 y; show (y 0).val = 0; omega
  | ⟨1, _⟩ => have := idx2_lt1 y; show (y 1).val = 0; omega

/-- A 1 x 1 array reshaped to 1 x 1 x 1 holds the array's one entry. -/
theorem cast111 {α : Type} (v : S1x1.Idx → α) (h : S1x1.ShapeCasts S1x1x1) (y : S1x1x1.Idx) :
    shapeCast S1x1x1 v h y = v (ix2 0 0) := by
  unfold shapeCast
  exact congrArg v (idx11 _)

/-- The all-zero word is the number zero. -/
theorem word_zero : Ideal.ofBits .f32 0x00000000#32 = 0 := by simp [Ideal.ofBits, Ideal.ieee]

/-- The zero the first accumulator is reset to. -/
theorem pay5_apply (y : S1x1.Idx) : k0_pay5 (F := Ideal) y = 0 := by
  unfold k0_pay5
  rw [shapeCast_self]
  exact word_zero

/-- The zero the second accumulator is reset to. -/
theorem pay6_apply (y : S1x1.Idx) : k0_pay6 (F := Ideal) y = 0 := by
  unfold k0_pay6
  rw [shapeCast_self]
  exact word_zero

/-- An accumulator after a step: what it held plus the image's sum. -/
theorem acc_step (xs w : FVec Ideal S1x1 .f32) (y : S1x1.Idx) :
    shapeCast S1x1 (addf xs w) shapeCasts_S1x1_S1x1 y = xs y + w (ix2 0 0) := by
  rw [shapeCast_self, addf_apply, idx11 y]

/-! ## One grid point -/

/-- At the first point of a run the first accumulator holds that image's loss. -/
theorem scr0_A (c : Dev nD) (t : Fin cfg0.N) (h0 : t.val % 16 = 0) (y : S1x1.Idx) :
    (outsAt0 (F := Ideal) m c t.val t.isLt).2.2.1 y = lossOf m c t.val := by
  have hN : t.val < 32 := lt_of_lt_of_eq t.isLt (show cfg0.N = 32 from N_0)
  have h1 : ¬t.val % 16 = 15 := by omega
  rw [outsAt0_A m c t h0 h1]
  dsimp only
  rw [sout0_A_0_eq, acc_step, pay5_apply, zero_add]
  unfold lossOf
  rw [dif_pos t.isLt]

/-- At a later point of a run the first accumulator holds what the point before left plus that image's loss. -/
theorem scr0_BC (c : Dev nD) (t : Fin cfg0.N) (h0 : ¬t.val % 16 = 0) (y : S1x1.Idx) :
    (outsAt0 (F := Ideal) m c t.val t.isLt).2.2.1 y
      = (outsAt0 (F := Ideal) m c (t.val - 1) (Nat.lt_of_le_of_lt (Nat.sub_le _ _) t.isLt)).2.2.1 y + lossOf m c t.val := by
  have hl : lossOf m c t.val = imageLossK (F := Ideal) (iblk m c 0 t) (ix2 0 0) := by
    unfold lossOf
    rw [dif_pos t.isLt]
  by_cases h1 : t.val % 16 = 15
  · rw [outsAt0_C m c t h0 h1]
    dsimp only
    rw [sout0_C_0_eq, acc_step, hl]
  · rw [outsAt0_B m c t h0 h1]
    dsimp only
    rw [sout0_B_0_eq, acc_step, hl]

/-- At the first point of a run the second accumulator holds that image's count. -/
theorem scr1_A (c : Dev nD) (t : Fin cfg0.N) (h0 : t.val % 16 = 0) (y : S1x1.Idx) :
    (outsAt0 (F := Ideal) m c t.val t.isLt).2.2.2 y = countOf m c t.val := by
  have hN : t.val < 32 := lt_of_lt_of_eq t.isLt (show cfg0.N = 32 from N_0)
  have h1 : ¬t.val % 16 = 15 := by omega
  rw [outsAt0_A m c t h0 h1]
  dsimp only
  rw [sout0_A_1_eq, acc_step, pay6_apply, zero_add]
  unfold countOf
  rw [dif_pos t.isLt]

/-- At a later point of a run the second accumulator holds what the point before left plus that image's count. -/
theorem scr1_BC (c : Dev nD) (t : Fin cfg0.N) (h0 : ¬t.val % 16 = 0) (y : S1x1.Idx) :
    (outsAt0 (F := Ideal) m c t.val t.isLt).2.2.2 y
      = (outsAt0 (F := Ideal) m c (t.val - 1) (Nat.lt_of_le_of_lt (Nat.sub_le _ _) t.isLt)).2.2.2 y + countOf m c t.val := by
  have hl : countOf m c t.val = imageCountK (F := Ideal) (iblk m c 0 t) (ix2 0 0) := by
    unfold countOf
    rw [dif_pos t.isLt]
  by_cases h1 : t.val % 16 = 15
  · rw [outsAt0_C m c t h0 h1]
    dsimp only
    rw [sout0_C_1_eq, acc_step, hl]
  · rw [outsAt0_B m c t h0 h1]
    dsimp only
    rw [sout0_B_1_eq, acc_step, hl]

/-! ## The accumulators after every point, and the output blocks at the end of a run -/

/-- After grid point n the first accumulator holds the losses of the images of n's run of sixteen, up to n. -/
theorem scratch0_at (c : Dev nD) : ∀ (n : ℕ) (hn : n < cfg0.N) (y : S1x1.Idx),
    (outsAt0 (F := Ideal) m c n hn).2.2.1 y = ∑ s ∈ Finset.range (n % 16 + 1), lossOf m c (16 * (n / 16) + s) := by
  intro n
  induction n with
  | zero =>
    intro hn y
    exact (scr0_A m c ⟨0, hn⟩ rfl y).trans (by simp)
  | succ k ih =>
    intro hn y
    by_cases h0 : (k + 1) % 16 = 0
    · have hA := scr0_A m c ⟨k + 1, hn⟩ h0 y
      have e : 16 * ((k + 1) / 16) + 0 = k + 1 := by omega
      rw [h0, zero_add, Finset.sum_range_one, e]
      exact hA
    · have hB := scr0_BC m c ⟨k + 1, hn⟩ h0 y
      have hq : (k + 1) / 16 = k / 16 := by omega
      have hr : (k + 1) % 16 = k % 16 + 1 := by omega
      have e : 16 * (k / 16) + (k % 16 + 1) = k + 1 := by omega
      rw [hr, hq, Finset.sum_range_succ, ← ih (Nat.lt_of_succ_lt hn) y, e]
      exact hB

/-- After grid point n the second accumulator holds the counts of the images of n's run of sixteen, up to n. -/
theorem scratch1_at (c : Dev nD) : ∀ (n : ℕ) (hn : n < cfg0.N) (y : S1x1.Idx),
    (outsAt0 (F := Ideal) m c n hn).2.2.2 y = ∑ s ∈ Finset.range (n % 16 + 1), countOf m c (16 * (n / 16) + s) := by
  intro n
  induction n with
  | zero =>
    intro hn y
    exact (scr1_A m c ⟨0, hn⟩ rfl y).trans (by simp)
  | succ k ih =>
    intro hn y
    by_cases h0 : (k + 1) % 16 = 0
    · have hA := scr1_A m c ⟨k + 1, hn⟩ h0 y
      have e : 16 * ((k + 1) / 16) + 0 = k + 1 := by omega
      rw [h0, zero_add, Finset.sum_range_one, e]
      exact hA
    · have hB := scr1_BC m c ⟨k + 1, hn⟩ h0 y
      have hq : (k + 1) / 16 = k / 16 := by omega
      have hr : (k + 1) % 16 = k % 16 + 1 := by omega
      have e : 16 * (k / 16) + (k % 16 + 1) = k + 1 := by omega
      rw [hr, hq, Finset.sum_range_succ, ← ih (Nat.lt_of_succ_lt hn) y, e]
      exact hB

/-- At the last point of a run of sixteen the first output block holds the run's whole loss: it is a copy of the first
    accumulator after that point. -/
theorem out1_at (c : Dev nD) (t : Fin cfg0.N) (h15 : t.val % 16 = 15) (y : S1x1x1.Idx) :
    (outsAt0 (F := Ideal) m c t.val t.isLt).1 y = ∑ s ∈ Finset.range 16, lossOf m c (16 * (t.val / 16) + s) := by
  have h0 : ¬t.val % 16 = 0 := by omega
  have hs := scratch0_at m c t.val t.isLt (ix2 0 0)
  rw [h15] at hs
  rw [outsAt0_C m c t h0 h15] at hs ⊢
  dsimp only at hs ⊢
  rw [sout0_C_0_eq] at hs
  rw [out0_C_1_eq, cast111]
  exact hs

/-- At the last point of a run of sixteen the second output block holds the run's whole count: it is a copy of the second
    accumulator after that point. -/
theorem out2_at (c : Dev nD) (t : Fin cfg0.N) (h15 : t.val % 16 = 15) (y : S1x1x1.Idx) :
    (outsAt0 (F := Ideal) m c t.val t.isLt).2.1 y = ∑ s ∈ Finset.range 16, countOf m c (16 * (t.val / 16) + s) := by
  have h0 : ¬t.val % 16 = 0 := by omega
  have hs := scratch1_at m c t.val t.isLt (ix2 0 0)
  rw [h15] at hs
  rw [outsAt0_C m c t h0 h15] at hs ⊢
  dsimp only at hs ⊢
  rw [sout0_C_1_eq] at hs
  rw [out0_C_2_eq, cast111]
  exact hs

end Cert.KernelIdeal.Gen

end
-- ==== Proof.Pixel.lean ====
/-
  The curvature loss at one pixel, and over an image, on the extended reals.

  An image is a function g of a row and a column (natural numbers). At the pixel with top-left corner (i, j) the loss
  looks at the 3x3 patch g i..i+2, j..j+2, named by compass points around the centre c = g (i+1) (j+1):
      nw n ne
      w  c  e
      sw s se
  From central differences  dx = (e - w) / (2h),  dy = (s - n) / (2h),  dxy = (se - sw - ne + nw) / (4h^2)  it forms
      curvature = (dxy dy^2 - 2 dy dx dxy + dxy dx^2) / ((dx^2 + dy^2)^(3/2) + eps),
  the excess  max((curvature / 1)^2 - 1, 0),  and the zero-crossing flag: 1 if c has the opposite sign of one of its four
  neighbours e, w, s, n, else 0. The loss is (sum of flag * excess) / (sum of flag + eps) over every pixel of every image.

  Two spellings of the same arithmetic are compared. One divides by the words for 2h and 4h^2, takes the 3/2 power and
  divides by 1; the other multiplies by the exact reciprocals of those two words, writes the power as s * sqrt s and
  multiplies by 1. They agree on every extended real: x / d = x * (1/d) for a nonzero real d, products reassociate, and
  s^(3/2) = s * sqrt s for every s >= 0 including +infinity. Nothing here assumes an entry is finite.
-/
import Idealize.ShloMosaic.PureOps.Ideal
import Idealize.ShloMosaic.PureOps.Ideal.Laws

noncomputable section

namespace Curvature

open Idealize.ShloMosaic

/-! ## The float words both programs carry -/

abbrev wZero : EReal := Ideal.ofBits .f32 0x00000000#32
abbrev wOne : EReal := Ideal.ofBits .f32 0x3F800000#32
abbrev wTwo : EReal := Ideal.ofBits .f32 0x40000000#32
abbrev wEps : EReal := Ideal.ofBits .f32 0x322BCC77#32
/-- the word for 2h = 0.122 -/
abbrev wD1 : EReal := Ideal.ofBits .f32 0x3DF9DB23#32
/-- the word for 4h^2 = 0.014884 -/
abbrev wD2 : EReal := Ideal.ofBits .f32 0x3C73DC05#32
/-- the word for 3/2 -/
abbrev wP : EReal := Ideal.ofBits .f32 0x3FC00000#32
/-- the exact reciprocal of the word for 2h -/
def k1 : EReal := ((134217728 / 16374563 : ℝ) : EReal)
/-- the exact reciprocal of the word for 4h^2 -/
def k2 : EReal := ((1073741824 / 15981573 : ℝ) : EReal)

/-! ## One pixel: the zero-crossing flag -/

/-- The one-bit flag: c * e < 0 or c * w < 0 or c * s < 0 or c * n < 0. -/
def zcBit (c e w s n : EReal) : BitVec 1 :=
  IntOp.ori (IntOp.ori (IntOp.ori (Ideal.cmp .olt (c * e) wZero) (Ideal.cmp .olt (c * w) wZero))
    (Ideal.cmp .olt (c * s) wZero)) (Ideal.cmp .olt (c * n) wZero)

/-- The flag as a number, the bit widened to 32 bits and read signed. -/
def zcW (c e w s n : EReal) : EReal := ((((zcBit c e w s n).setWidth 32).toInt : ℝ) : EReal)

/-- The flag as a number, the bit read unsigned. -/
def zcU (c e w s n : EReal) : EReal := (((zcBit c e w s n).toNat : ℝ) : EReal)

/-! ## One pixel: the excess curvature, by reciprocals -/

def numM (dx dy dxy : EReal) : EReal := ((dxy * dy) * dy - ((wTwo * dy) * dx) * dxy) + (dxy * dx) * dx

def excessM (nw n ne w e sw s se : EReal) : EReal :=
  let dx := (e - w) * k1
  let dy := (s - n) * k1
  let dxy := (((se - sw) - ne) + nw) * k2
  let q := dx * dx + dy * dy
  let t := Ideal.div (numM dx dy dxy) (q * Ideal.sqrt q + wEps) * wOne
  max (t * t - wOne) wZero

/-! ## One pixel: the excess curvature, by quotients -/

def numD (dx dy dxy : EReal) : EReal := (dxy * (dy * dy) - ((wTwo * dy) * dx) * dxy) + dxy * (dx * dx)

def excessD (nw n ne w e sw s se : EReal) : EReal :=
  let dx := Ideal.div (e - w) wD1
  let dy := Ideal.div (s - n) wD1
  let dxy := Ideal.div (((se - sw) - ne) + nw) wD2
  let q := dx * dx + dy * dy
  let t := Ideal.div (Ideal.div (numD dx dy dxy) (Ideal.pow q wP + wEps)) wOne
  max (t * t - wOne) wZero

/-! ## A pixel of an image -/

variable (g : ℕ → ℕ → EReal)

/-- flag * excess at the pixel with corner (i, j), by quotients -/
def lossAt (i j : ℕ) : EReal :=
  zcU (g (i+1) (j+1)) (g (i+1) (j+2)) (g (i+1) j) (g (i+2) (j+1)) (g i (j+1))
    * excessD (g i j) (g i (j+1)) (g i (j+2)) (g (i+1) j) (g (i+1) (j+2)) (g (i+2) j) (g (i+2) (j+1)) (g (i+2) (j+2))

/-- the flag at the pixel with corner (i, j) -/
def flagAt (i j : ℕ) : EReal :=
  zcU (g (i+1) (j+1)) (g (i+1) (j+2)) (g (i+1) j) (g (i+2) (j+1)) (g i (j+1))

/-- flag * excess at the pixel with corner (i, j), by reciprocals and with the flag read through 32 bits -/
def lossAtM (i j : ℕ) : EReal :=
  zcW (g (i+1) (j+1)) (g (i+1) (j+2)) (g (i+1) j) (g (i+2) (j+1)) (g i (j+1))
    * excessM (g i j) (g i (j+1)) (g i (j+2)) (g (i+1) j) (g (i+1) (j+2)) (g (i+2) j) (g (i+2) (j+1)) (g (i+2) (j+2))

def flagAtM (i j : ℕ) : EReal :=
  zcW (g (i+1) (j+1)) (g (i+1) (j+2)) (g (i+1) j) (g (i+2) (j+1)) (g i (j+1))

/-- The loss numerator of one 1024 x 1024 image: the 1022 x 1022 interior pixels. -/
def imageLoss : EReal := ∑ i ∈ Finset.range 1022, ∑ j ∈ Finset.range 1022, lossAt g i j

/-- The loss denominator (count of flagged pixels) of one image. -/
def imageFlags : EReal := ∑ i ∈ Finset.range 1022, ∑ j ∈ Finset.range 1022, flagAt g i j

/-! ## The whole loss -/

/-- An array of 32 images as functions of natural-number rows and columns (positions taken mod 1024, so that the
    function is total; only rows and columns below 1024 are ever used). -/
def imageOf (φ : Fin 32 → Fin 1024 → Fin 1024 → EReal) (b : Fin 32) : ℕ → ℕ → EReal :=
  fun r c => φ b ⟨r % 1024, Nat.mod_lt _ (by norm_num)⟩ ⟨c % 1024, Nat.mod_lt _ (by norm_num)⟩

/-- The curvature loss of 32 images. -/
def total (φ : Fin 32 → Fin 1024 → Fin 1024 → EReal) : EReal :=
  Ideal.div (∑ b : Fin 32, imageLoss (imageOf φ b)) ((∑ b : Fin 32, imageFlags (imageOf φ b)) + wEps)

end Curvature

end
-- ==== Proof.ChunkRead.lean ====
/-
  One window of rows, read on the extended reals.

  A window is a block of 128 (or 16) rows of 1024 columns. From it the arithmetic forms, at every interior pixel (row r,
  column c of the 126 x 1022, or 14 x 1022, interior), the zero-crossing flag and the excess curvature of the 3x3 patch
  with top-left corner (r, c); it then adds flag * excess (and the flag alone) along each row and down the rows.

  On the extended reals every elementwise operation at a pixel is the scalar operation on the entries there, a slice
  with offsets (o, o') reads the window at (r + o, c + o'), and a sum along one axis is the finite sum over that axis's
  coordinates. So each of the four results is the double sum, over the interior rows and columns, of the per-pixel
  function of Pixel.lean (the spelling with the named reciprocals and the flag read through 32 bits) of the window
  viewed as a function of a row and a column number.
-/
import proofs.«166240_j2757369004563_1_alg».proof.Proof.Chunk
import proofs.«166240_j2757369004563_1_alg».proof.Proof.Pixel
import Idealize.ShloMosaic.Lib.ValueIdx
import Idealize.ShloMosaic.Lib.Pipeline.Value
import Idealize.ShloMosaic.PureOps.Ideal.Laws
noncomputable section
namespace Cert.KernelIdeal.ChunkRead
open Idealize.ShloMosaic Idealize.ShloMosaic.ValueIdx Cert.KernelIdeal Cert.KernelIdeal.Gen Cert.KernelIdeal.Chunk

/-! ## Constants and elementwise operations at an index -/

/-- The named constant "inv2h" is the exact reciprocal of the word for 2h. -/
theorem k1_eq : Named.named (F := Ideal) Cert.KernelIdeal.κ "inv2h" (φ := .f32) 0x410325C5#32 = Curvature.k1 :=
  IdealRules.named_const.ideal_named_scalar _ _ _ _ rfl

/-- The named constant "inv4h2" is the exact reciprocal of the word for 4h^2. -/
theorem k2_eq : Named.named (F := Ideal) Cert.KernelIdeal.κ "inv4h2" (φ := .f32) 0x42865F5B#32 = Curvature.k2 :=
  IdealRules.named_const.ideal_named_scalar _ _ _ _ rfl

/-- A square root at an index is the square root of the entry. -/
theorem sqrt_apply {s : Shape} {φ : FTy} (a : FVec Ideal s φ) (i : s.Idx) : sqrt a i = Ideal.sqrt (a i) := rfl

/-- A bitwise or at an index is the or of the entries. -/
theorem ori_apply {s : Shape} {w : ℕ} (a b : IVec s w) (i : s.Idx) : ori a b i = IntOp.ori (a i) (b i) := rfl

/-- A float word as a scalar is the extended real it encodes. -/
theorem ofBits_scalar (w : BitVec 32) : Scalar.ofBits (F := Ideal) .f32 w = Ideal.ofBits .f32 w := rfl

/-! ## A window of 128 rows -/

/-- A window of 128 rows as a function of row and column numbers (taken mod the extents, so that it is total). -/
def grid128 (x : FVec Ideal S128x1024 .f32) : ℕ → ℕ → EReal :=
  fun r c => x (ix2 ⟨r % 128, Nat.mod_lt _ (by norm_num)⟩ ⟨c % 1024, Nat.mod_lt _ (by norm_num)⟩)

/-- The slice with offsets (o0, o1), read at the interior pixel (r, c), is the window at (r + o0, c + o1): the sums stay
    below the extents, so the remainders are the sums themselves. -/
theorem slice128 (o0 o1 : ℕ) (x : FVec Ideal S128x1024 .f32) (h : S128x1024.Slices ![o0, o1] S126x1022)
    (r : Fin 126) (c : Fin 1022) :
    extractStridedSlice S126x1022 ![o0, o1] x h (ix2 r c) = grid128 x (r.val + o0) (c.val + o1) := by
  have hr := r.isLt
  have hc := c.isLt
  have h0 := h.2 ⟨0, by decide⟩
  change o0 + 126 ≤ 128 at h0
  have h1 := h.2 ⟨1, by decide⟩
  change o1 + 1022 ≤ 1024 at h1
  unfold grid128
  exact extractStridedSlice_apply ![o0, o1] x h (ix2 r c) _ (fun a => match a with
    | ⟨0, _⟩ => by show (r.val + o0) % 128 = o0 + r.val; omega
    | ⟨1, _⟩ => by show (c.val + o1) % 1024 = o1 + c.val; omega)

/-- The excess curvature at the interior pixel (r, c): the per-pixel function of the 3x3 patch with corner (r, c). -/
theorem excess126_apply (x : FVec Ideal S128x1024 .f32) (r : Fin 126) (c : Fin 1022) :
    excess126 (F := Ideal) (ratio126 (F := Ideal) x) (ix2 r c)
      = Curvature.excessM (grid128 x r.val c.val) (grid128 x r.val (c.val+1)) (grid128 x r.val (c.val+2))
          (grid128 x (r.val+1) c.val) (grid128 x (r.val+1) (c.val+2))
          (grid128 x (r.val+2) c.val) (grid128 x (r.val+2) (c.val+1)) (grid128 x (r.val+2) (c.val+2)) := by
  simp only [excess126, ratio126, mulf_apply, subf_apply, addf_apply, divf_apply, maximumf_apply, broadcast_apply,
    sqrt_apply, slice128, k1_eq, k2_eq, ofBits_scalar]
  rfl

/-- The zero-crossing flag at the interior pixel (r, c). -/
theorem flag126_apply (x : FVec Ideal S128x1024 .f32) (r : Fin 126) (c : Fin 1022) :
    flag126 (F := Ideal) x (ix2 r c) = Curvature.flagAtM (grid128 x) r.val c.val := by
  simp only [flag126, mulf_apply, broadcast_apply, cmpf_apply, extui_apply, sitofp_apply, ori_apply, slice128, ofBits_scalar]
  rfl

/-- flag * excess at the interior pixel (r, c). -/
theorem lossPt126 (x : FVec Ideal S128x1024 .f32) (r : Fin 126) (c : Fin 1022) :
    mulf (flag126 (F := Ideal) x) (excess126 (F := Ideal) (ratio126 (F := Ideal) x)) (ix2 r c)
      = Curvature.lossAtM (grid128 x) r.val c.val := by
  rw [mulf_apply, flag126_apply, excess126_apply]
  rfl

/-- The two sums of a window (along each row, then down the rows, a change of shape between them and one after) read at
    the one index of the result: the double sum over rows and columns. A change of shape reads the entry at the same
    row-major position; a sum along one axis is the sum over that axis's coordinates. -/
theorem sum126 (v : FVec Ideal S126x1022 .f32) (i : S1x1.Idx) :
    shapeCast S1x1 (multiReduction .add [0] S1
        (shapeCast S126x1 (multiReduction .add [1] S126 v 0x00000000#32 reduces_S126x1022_S126 (.inl rfl) rfl)
          shapeCasts_S126_S126x1)
        0x00000000#32 reduces_S126x1_S1 (.inl rfl) rfl) shapeCasts_S1_S1x1 i
      = ∑ r : Fin 126, ∑ c : Fin 1022, v (ix2 r c) := by
  refine (shapeCast_apply _ shapeCasts_S1_S1x1 i (ix1 (0 : Fin 1)) ?_).trans ?_
  · rw [Shape.rowMajor_val_one, Shape.rowMajor_val_two]
    have h0 := idx2_lt0 i
    have h1 := idx2_lt1 i
    show 0 = (i 0).val * 1 + (i 1).val
    omega
  refine (Ideal.multiReduction_add_single _ _ reduces_S126x1_S1 (.inl rfl) rfl _).trans ?_
  show ∑ r : Fin 126, _ = _
  refine Finset.sum_congr rfl fun r _ => ?_
  refine (shapeCast_apply _ shapeCasts_S126_S126x1 _ (ix1 r) ?_).trans ?_
  · rw [Shape.rowMajor_val_one, Shape.rowMajor_val_two]
    show r.val = r.val * 1 + 0
    omega
  refine (Ideal.multiReduction_add_single _ _ reduces_S126x1022_S126 (.inl rfl) rfl _).trans ?_
  show ∑ c : Fin 1022, _ = _
  refine Finset.sum_congr rfl fun c _ => ?_
  refine congrArg v ?_
  funext a
  match a with
  | ⟨0, _⟩ => rfl
  | ⟨1, _⟩ => rfl

/-- The window's sum of flag * excess is the double sum of the per-pixel loss over the 126 x 1022 interior. -/
theorem loss126_eq (x : FVec Ideal S128x1024 .f32) (i : S1x1.Idx) :
    loss126 (F := Ideal) x i = ∑ r ∈ Finset.range 126, ∑ c ∈ Finset.range 1022, Curvature.lossAtM (grid128 x) r c := by
  refine (sum126 _ i).trans ?_
  rw [← Fin.sum_univ_eq_sum_range (fun r => ∑ c ∈ Finset.range 1022, Curvature.lossAtM (grid128 x) r c) 126]
  refine Finset.sum_congr rfl fun r _ => ?_
  rw [← Fin.sum_univ_eq_sum_range (fun c => Curvature.lossAtM (grid128 x) r.val c) 1022]
  exact Finset.sum_congr rfl fun c _ => lossPt126 x r c

/-- The window's count of flagged pixels is the double sum of the per-pixel flag over the 126 x 1022 interior. -/
theorem count126_eq (x : FVec Ideal S128x1024 .f32) (i : S1x1.Idx) :
    count126 (F := Ideal) x i = ∑ r ∈ Finset.range 126, ∑ c ∈ Finset.range 1022, Curvature.flagAtM (grid128 x) r c := by
  refine (sum126 _ i).trans ?_
  rw [← Fin.sum_univ_eq_sum_range (fun r => ∑ c ∈ Finset.range 1022, Curvature.flagAtM (grid128 x) r c) 126]
  refine Finset.sum_congr rfl fun r _ => ?_
  rw [← Fin.sum_univ_eq_sum_range (fun c => Curvature.flagAtM (grid128 x) r.val c) 1022]
  exact Finset.sum_congr rfl fun c _ => flag126_apply x r c

/-! ## A window of 16 rows -/

/-- A window of 16 rows as a function of row and column numbers (taken mod the extents, so that it is total). -/
def grid16 (x : FVec Ideal S16x1024 .f32) : ℕ → ℕ → EReal :=
  fun r c => x (ix2 ⟨r % 16, Nat.mod_lt _ (by norm_num)⟩ ⟨c % 1024, Nat.mod_lt _ (by norm_num)⟩)

/-- The slice with offsets (o0, o1), read at the interior pixel (r, c), is the window at (r + o0, c + o1): the sums stay
    below the extents, so the remainders are the sums themselves. -/
theorem slice16 (o0 o1 : ℕ) (x : FVec Ideal S16x1024 .f32) (h : S16x1024.Slices ![o0, o1] S14x1022)
    (r : Fin 14) (c : Fin 1022) :
    extractStridedSlice S14x1022 ![o0, o1] x h (ix2 r c) = grid16 x (r.val + o0) (c.val + o1) := by
  have hr := r.isLt
  have hc := c.isLt
  have h0 := h.2 ⟨0, by decide⟩
  change o0 + 14 ≤ 16 at h0
  have h1 := h.2 ⟨1, by decide⟩
  change o1 + 1022 ≤ 1024 at h1
  unfold grid16
  exact extractStridedSlice_apply ![o0, o1] x h (ix2 r c) _ (fun a => match a with
    | ⟨0, _⟩ => by show (r.val + o0) % 16 = o0 + r.val; omega
    | ⟨1, _⟩ => by show (c.val + o1) % 1024 = o1 + c.val; omega)

/-- The excess curvature at the interior pixel (r, c): the per-pixel function of the 3x3 patch with corner (r, c). -/
theorem excess14_apply (x : FVec Ideal S16x1024 .f32) (r : Fin 14) (c : Fin 1022) :
    excess14 (F := Ideal) (ratio14 (F := Ideal) x) (ix2 r c)
      = Curvature.excessM (grid16 x r.val c.val) (grid16 x r.val (c.val+1)) (grid16 x r.val (c.val+2))
          (grid16 x (r.val+1) c.val) (grid16 x (r.val+1) (c.val+2))
          (grid16 x (r.val+2) c.val) (grid16 x (r.val+2) (c.val+1)) (grid16 x (r.val+2) (c.val+2)) := by
  simp only [excess14, ratio14, mulf_apply, subf_apply, addf_apply, divf_apply, maximumf_apply, broadcast_apply,
    sqrt_apply, slice16, k1_eq, k2_eq, ofBits_scalar]
  rfl

/-- The zero-crossing flag at the interior pixel (r, c). -/
theorem flag14_apply (x : FVec Ideal S16x1024 .f32) (r : Fin 14) (c : Fin 1022) :
    flag14 (F := Ideal) x (ix2 r c) = Curvature.flagAtM (grid16 x) r.val c.val := by
  simp only [flag14, mulf_apply, broadcast_apply, cmpf_apply, extui_apply, sitofp_apply, ori_apply, slice16, ofBits_scalar]
  rfl

/-- flag * excess at the interior pixel (r, c). -/
theorem lossPt14 (x : FVec Ideal S16x1024 .f32) (r : Fin 14) (c : Fin 1022) :
    mulf (flag14 (F := Ideal) x) (excess14 (F := Ideal) (ratio14 (F := Ideal) x)) (ix2 r c)
      = Curvature.lossAtM (grid16 x) r.val c.val := by
  rw [mulf_apply, flag14_apply, excess14_apply]
  rfl

/-- The two sums of a window (along each row, then down the rows, a change of shape between them and one after) read at
    the one index of the result: the double sum over rows and columns. A change of shape reads the entry at the same
    row-major position; a sum along one axis is the sum over that axis's coordinates. -/
theorem sum14 (v : FVec Ideal S14x1022 .f32) (i : S1x1.Idx) :
    shapeCast S1x1 (multiReduction .add [0] S1
        (shapeCast S14x1 (multiReduction .add [1] S14 v 0x00000000#32 reduces_S14x1022_S14 (.inl rfl) rfl)
          shapeCasts_S14_S14x1)
        0x00000000#32 reduces_S14x1_S1 (.inl rfl) rfl) shapeCasts_S1_S1x1 i
      = ∑ r : Fin 14, ∑ c : Fin 1022, v (ix2 r c) := by
  refine (shapeCast_apply _ shapeCasts_S1_S1x1 i (ix1 (0 : Fin 1)) ?_).trans ?_
  · rw [Shape.rowMajor_val_one, Shape.rowMajor_val_two]
    have h0 := idx2_lt0 i
    have h1 := idx2_lt1 i
    show 0 = (i 0).val * 1 + (i 1).val
    omega
  refine (Ideal.multiReduction_add_single _ _ reduces_S14x1_S1 (.inl rfl) rfl _).trans ?_
  show ∑ r : Fin 14, _ = _
  refine Finset.sum_congr rfl fun r _ => ?_
  refine (shapeCast_apply _ shapeCasts_S14_S14x1 _ (ix1 r) ?_).trans ?_
  · rw [Shape.rowMajor_val_one, Shape.rowMajor_val_two]
    show r.val = r.val * 1 + 0
    omega
  refine (Ideal.multiReduction_add_single _ _ reduces_S14x1022_S14 (.inl rfl) rfl _).trans ?_
  show ∑ c : Fin 1022, _ = _
  refine Finset.sum_congr rfl fun c _ => ?_
  refine congrArg v ?_
  funext a
  match a with
  | ⟨0, _⟩ => rfl
  | ⟨1, _⟩ => rfl

/-- The window's sum of flag * excess is the double sum of the per-pixel loss over the 14 x 1022 interior. -/
theorem loss14_eq (x : FVec Ideal S16x1024 .f32) (i : S1x1.Idx) :
    loss14 (F := Ideal) x i = ∑ r ∈ Finset.range 14, ∑ c ∈ Finset.range 1022, Curvature.lossAtM (grid16 x) r c := by
  refine (sum14 _ i).trans ?_
  rw [← Fin.sum_univ_eq_sum_range (fun r => ∑ c ∈ Finset.range 1022, Curvature.lossAtM (grid16 x) r c) 14]
  refine Finset.sum_congr rfl fun r _ => ?_
  rw [← Fin.sum_univ_eq_sum_range (fun c => Curvature.lossAtM (grid16 x) r.val c) 1022]
  exact Finset.sum_congr rfl fun c _ => lossPt14 x r c

/-- The window's count of flagged pixels is the double sum of the per-pixel flag over the 14 x 1022 interior. -/
theorem count14_eq (x : FVec Ideal S16x1024 .f32) (i : S1x1.Idx) :
    count14 (F := Ideal) x i = ∑ r ∈ Finset.range 14, ∑ c ∈ Finset.range 1022, Curvature.flagAtM (grid16 x) r c := by
  refine (sum14 _ i).trans ?_
  rw [← Fin.sum_univ_eq_sum_range (fun r => ∑ c ∈ Finset.range 1022, Curvature.flagAtM (grid16 x) r c) 14]
  refine Finset.sum_congr rfl fun r _ => ?_
  rw [← Fin.sum_univ_eq_sum_range (fun c => Curvature.flagAtM (grid16 x) r.val c) 1022]
  exact Finset.sum_congr rfl fun c _ => flag14_apply x r c

end Cert.KernelIdeal.ChunkRead
end
-- ==== Proof.PixelLaw.lean ====
/-
  The per-pixel law: the two spellings of the zero-crossing flag, and of flag * excess curvature, are equal on every
  extended real.

  The float words are evaluated once (0, 1, 3/2 and the two step words as exact dyadic rationals). Then:
  division by a nonzero real word is the product with its exact reciprocal, at the infinities too; products of
  extended reals reassociate; a sum of two squares is never negative, and s^(3/2) = s * sqrt s for every s >= 0
  including +infinity; multiplying or dividing by 1 changes nothing; a one-bit flag read through 32 bits as a signed
  integer is the same number as the bit read unsigned. No entry is assumed finite.
-/
import proofs.«166240_j2757369004563_1_alg».proof.Proof.Pixel

noncomputable section

namespace Curvature

open Idealize.ShloMosaic

/-! ## The values of the float words -/

theorem wZero_eq : wZero = 0 := Ideal.ofBits_zero_f32

theorem wOne_eq : wOne = 1 := by
  simp [Ideal.ofBits, Ideal.ieee, -EReal.coe_mul]; norm_num

theorem wP_eq : wP = ((3 / 2 : ℝ) : EReal) := by
  simp [Ideal.ofBits, Ideal.ieee, -EReal.coe_mul]; norm_num

theorem wD1_eq : wD1 = ((16374563 / 134217728 : ℝ) : EReal) := by
  simp [Ideal.ofBits, Ideal.ieee, -EReal.coe_mul]; norm_num

theorem wD2_eq : wD2 = ((15981573 / 1073741824 : ℝ) : EReal) := by
  simp [Ideal.ofBits, Ideal.ieee, -EReal.coe_mul]; norm_num

/-! ## Dividing by a step word is multiplying by its exact reciprocal -/

theorem mul_k1 (x : EReal) : x * k1 = Ideal.div x wD1 := by
  rw [wD1_eq, Ideal.div_coe (by norm_num) x, k1]
  have h : (1 / (16374563 / 134217728) : ℝ) = 134217728 / 16374563 := by norm_num
  rw [h]

theorem mul_k2 (x : EReal) : x * k2 = Ideal.div x wD2 := by
  rw [wD2_eq, Ideal.div_coe (by norm_num) x, k2]
  have h : (1 / (15981573 / 1073741824) : ℝ) = 1073741824 / 15981573 := by norm_num
  rw [h]

/-! ## The numerator: products reassociate -/

theorem numM_eq (dx dy dxy : EReal) : numM dx dy dxy = numD dx dy dxy := by
  unfold numM numD
  rw [mul_assoc dxy dy dy, mul_assoc dxy dx dx]

/-! ## The 3/2 power of a nonnegative extended real -/

theorem rpow_three_halves (r : ℝ) (hr : 0 ≤ r) : Real.rpow r (3 / 2) = r * Real.sqrt r := by
  rw [Real.rpow_eq_pow]
  rcases hr.eq_or_lt with h | h
  · subst h
    rw [Real.zero_rpow (by norm_num), zero_mul]
  · rw [Real.sqrt_eq_rpow, show (3 / 2 : ℝ) = 1 + 1 / 2 by norm_num, Real.rpow_add h, Real.rpow_one]

theorem mul_self_nonneg_ereal (a : EReal) : 0 ≤ a * a := by
  induction a using EReal.rec with
  | bot => rw [EReal.bot_mul_bot]; exact le_top
  | top => rw [EReal.top_mul_top]; exact le_top
  | coe r => rw [← EReal.coe_mul]; exact_mod_cast mul_self_nonneg r

theorem sum_squares_nonneg (a b : EReal) : 0 ≤ a * a + b * b :=
  add_nonneg (mul_self_nonneg_ereal a) (mul_self_nonneg_ereal b)

theorem pow_wP_eq (q : EReal) (hq : 0 ≤ q) : Ideal.pow q wP = q * Ideal.sqrt q := by
  rw [wP_eq]
  induction q using EReal.rec with
  | bot => exact absurd hq (by simp)
  | top =>
    rw [Ideal.pow_top, if_pos (by exact_mod_cast (by norm_num : (0 : ℝ) < 3 / 2)), Ideal.sqrt_top,
      EReal.top_mul_top]
  | coe r =>
    have hr : 0 ≤ r := by exact_mod_cast hq
    rw [Ideal.pow_coe_coe, Ideal.sqrt_coe, if_neg (not_lt.mpr hr), rpow_three_halves r hr, EReal.coe_mul]

/-! ## Multiplying and dividing by the word 1 -/

theorem mul_wOne (x : EReal) : x * wOne = x := by
  rw [wOne_eq, mul_one]

theorem div_wOne (x : EReal) : Ideal.div x wOne = x := by
  have h := Ideal.div_coe (one_ne_zero : (1 : ℝ) ≠ 0) x
  rw [wOne_eq]
  simpa using h

/-! ## The flag read through 32 bits -/

theorem setWidth_toInt_eq (b : BitVec 1) : (((b.setWidth 32).toInt : ℤ) : ℝ) = ((b.toNat : ℕ) : ℝ) := by
  have h : ∀ b : BitVec 1, (b.setWidth 32).toInt = (b.toNat : ℤ) := by decide
  rw [h b, Int.cast_natCast]

theorem zcW_eq (c e w s n : EReal) : zcW c e w s n = zcU c e w s n := by
  unfold zcW zcU
  rw [setWidth_toInt_eq]

/-! ## The excess curvature in both spellings -/

theorem excessM_eq (nw n ne w e sw s se : EReal) :
    excessM nw n ne w e sw s se = excessD nw n ne w e sw s se := by
  simp only [excessM, excessD]
  rw [mul_k1, mul_k1, mul_k2, numM_eq, mul_wOne, div_wOne, pow_wP_eq _ (sum_squares_nonneg _ _)]

/-! ## The per-pixel law -/

theorem flagAtM_eq (g : ℕ → ℕ → EReal) (i j : ℕ) : flagAtM g i j = flagAt g i j := by
  unfold flagAtM flagAt
  exact zcW_eq _ _ _ _ _

theorem lossAtM_eq (g : ℕ → ℕ → EReal) (i j : ℕ) : lossAtM g i j = lossAt g i j := by
  unfold lossAtM lossAt
  rw [zcW_eq, excessM_eq]

end Curvature

end
-- ==== Proof.ImageRows.lean ====
/-
  Sums over the rows of an image: the nine windows of rows add up to the whole image.

  The pixel functions at the corner (r, c) read the image at rows r..r+2 and columns c..c+2 only, so two images that
  agree there give the same value. A window that holds the rows o, o+1, ... of an image g gives, at its own row r, the
  value g gives at row o + r. The 1022 interior rows are eight runs of 126 rows and one of 14, and a sum over
  range (n + m) is the sum over range n plus the sum over range m shifted by n; so the windows' sums, added in order
  to zero, are the whole image's sum. Together with the per-pixel law this turns the sums by reciprocals, window by
  window, into the one sum by quotients.
-/
import proofs.«166240_j2757369004563_1_alg».proof.Proof.Pixel
import proofs.«166240_j2757369004563_1_alg».proof.Proof.PixelLaw

noncomputable section

namespace Curvature

open Idealize.ShloMosaic

/-! ## The pixel functions read a 3 x 3 patch -/

/-- The pixel functions look at rows r..r+2 and columns c..c+2 only. -/
theorem lossAtM_congr (g g' : ℕ → ℕ → EReal) (r c : ℕ)
    (h : ∀ a b, a ≤ 2 → b ≤ 2 → g (r + a) (c + b) = g' (r + a) (c + b)) : lossAtM g r c = lossAtM g' r c := by
  have h00 : g r c = g' r c := h 0 0 (by omega) (by omega)
  have h01 : g r (c + 1) = g' r (c + 1) := h 0 1 (by omega) (by omega)
  have h02 : g r (c + 2) = g' r (c + 2) := h 0 2 (by omega) (by omega)
  have h10 : g (r + 1) c = g' (r + 1) c := h 1 0 (by omega) (by omega)
  have h11 : g (r + 1) (c + 1) = g' (r + 1) (c + 1) := h 1 1 (by omega) (by omega)
  have h12 : g (r + 1) (c + 2) = g' (r + 1) (c + 2) := h 1 2 (by omega) (by omega)
  have h20 : g (r + 2) c = g' (r + 2) c := h 2 0 (by omega) (by omega)
  have h21 : g (r + 2) (c + 1) = g' (r + 2) (c + 1) := h 2 1 (by omega) (by omega)
  have h22 : g (r + 2) (c + 2) = g' (r + 2) (c + 2) := h 2 2 (by omega) (by omega)
  unfold lossAtM
  rw [h00, h01, h02, h10, h11, h12, h20, h21, h22]

theorem flagAtM_congr (g g' : ℕ → ℕ → EReal) (r c : ℕ)
    (h : ∀ a b, a ≤ 2 → b ≤ 2 → g (r + a) (c + b) = g' (r + a) (c + b)) : flagAtM g r c = flagAtM g' r c := by
  have h01 : g r (c + 1) = g' r (c + 1) := h 0 1 (by omega) (by omega)
  have h10 : g (r + 1) c = g' (r + 1) c := h 1 0 (by omega) (by omega)
  have h11 : g (r + 1) (c + 1) = g' (r + 1) (c + 1) := h 1 1 (by omega) (by omega)
  have h12 : g (r + 1) (c + 2) = g' (r + 1) (c + 2) := h 1 2 (by omega) (by omega)
  have h21 : g (r + 2) (c + 1) = g' (r + 2) (c + 1) := h 2 1 (by omega) (by omega)
  unfold flagAtM
  rw [h01, h10, h11, h12, h21]

/-! ## An image read from row o on -/

/-- The rows o, o+1, ... of g, at row r, are g at row o + r. -/
theorem lossAtM_shift (g : ℕ → ℕ → EReal) (o r c : ℕ) :
    lossAtM (fun r c => g (o + r) c) r c = lossAtM g (o + r) c := by
  unfold lossAtM
  simp only [Nat.add_assoc]

theorem flagAtM_shift (g : ℕ → ℕ → EReal) (o r c : ℕ) :
    flagAtM (fun r c => g (o + r) c) r c = flagAtM g (o + r) c := by
  unfold flagAtM
  simp only [Nat.add_assoc]

/-- A window w holding rows o .. o+m-1 of g, summed over its first n rows (n + 2 ≤ m): flag * excess by reciprocals
    in the window is flag * excess by quotients in the image, n rows from row o. -/
theorem window_loss (g w : ℕ → ℕ → EReal) (o n m : ℕ) (hm : n + 2 ≤ m)
    (hw : ∀ r c, r < m → c < 1024 → w r c = g (o + r) c) :
    ∑ r ∈ Finset.range n, ∑ c ∈ Finset.range 1022, lossAtM w r c
      = ∑ r ∈ Finset.range n, ∑ c ∈ Finset.range 1022, lossAt g (o + r) c := by
  refine Finset.sum_congr rfl (fun r hr => Finset.sum_congr rfl (fun c hc => ?_))
  rw [Finset.mem_range] at hr hc
  rw [lossAtM_congr w (fun r c => g (o + r) c) r c
    (fun a b ha hb => hw (r + a) (c + b) (by omega) (by omega)), lossAtM_shift, lossAtM_eq]

theorem window_flags (g w : ℕ → ℕ → EReal) (o n m : ℕ) (hm : n + 2 ≤ m)
    (hw : ∀ r c, r < m → c < 1024 → w r c = g (o + r) c) :
    ∑ r ∈ Finset.range n, ∑ c ∈ Finset.range 1022, flagAtM w r c
      = ∑ r ∈ Finset.range n, ∑ c ∈ Finset.range 1022, flagAt g (o + r) c := by
  refine Finset.sum_congr rfl (fun r hr => Finset.sum_congr rfl (fun c hc => ?_))
  rw [Finset.mem_range] at hr hc
  rw [flagAtM_congr w (fun r c => g (o + r) c) r c
    (fun a b ha hb => hw (r + a) (c + b) (by omega) (by omega)), flagAtM_shift, flagAtM_eq]

/-! ## The rows in nine runs -/

/-- 1022 rows are eight runs of 126 and one of 14. -/
theorem sum_rows (f : ℕ → EReal) :
    ∑ i ∈ Finset.range 1022, f i =
      (∑ r ∈ Finset.range 126, f (0 + r)) + (∑ r ∈ Finset.range 126, f (126 + r)) + (∑ r ∈ Finset.range 126, f (252 + r))
      + (∑ r ∈ Finset.range 126, f (378 + r)) + (∑ r ∈ Finset.range 126, f (504 + r)) + (∑ r ∈ Finset.range 126, f (630 + r))
      + (∑ r ∈ Finset.range 126, f (756 + r)) + (∑ r ∈ Finset.range 126, f (882 + r)) + (∑ r ∈ Finset.range 14, f (1008 + r)) := by
  have s9 : ∑ i ∈ Finset.range 1022, f i = ∑ i ∈ Finset.range 1008, f i + ∑ r ∈ Finset.range 14, f (1008 + r) :=
    Finset.sum_range_add f 1008 14
  have s8 : ∑ i ∈ Finset.range 1008, f i = ∑ i ∈ Finset.range 882, f i + ∑ r ∈ Finset.range 126, f (882 + r) :=
    Finset.sum_range_add f 882 126
  have s7 : ∑ i ∈ Finset.range 882, f i = ∑ i ∈ Finset.range 756, f i + ∑ r ∈ Finset.range 126, f (756 + r) :=
    Finset.sum_range_add f 756 126
  have s6 : ∑ i ∈ Finset.range 756, f i = ∑ i ∈ Finset.range 630, f i + ∑ r ∈ Finset.range 126, f (630 + r) :=
    Finset.sum_range_add f 630 126
  have s5 : ∑ i ∈ Finset.range 630, f i = ∑ i ∈ Finset.range 504, f i + ∑ r ∈ Finset.range 126, f (504 + r) :=
    Finset.sum_range_add f 504 126
  have s4 : ∑ i ∈ Finset.range 504, f i = ∑ i ∈ Finset.range 378, f i + ∑ r ∈ Finset.range 126, f (378 + r) :=
    Finset.sum_range_add f 378 126
  have s3 : ∑ i ∈ Finset.range 378, f i = ∑ i ∈ Finset.range 252, f i + ∑ r ∈ Finset.range 126, f (252 + r) :=
    Finset.sum_range_add f 252 126
  have s2 : ∑ i ∈ Finset.range 252, f i = ∑ i ∈ Finset.range 126, f i + ∑ r ∈ Finset.range 126, f (126 + r) :=
    Finset.sum_range_add f 126 126
  have s1 : ∑ i ∈ Finset.range 126, f i = ∑ r ∈ Finset.range 126, f (0 + r) :=
    Finset.sum_congr rfl (fun r _ => by rw [Nat.zero_add])
  rw [s9, s8, s7, s6, s5, s4, s3, s2, s1]

/-! ## The image's sums from its nine windows -/

/-- Nine windows w0..w8 of an image g — window k holds rows 126k .. 126k+127 of g (the last one rows 1008 .. 1023) —:
    zero plus the windows' sums of flag * excess (by reciprocals), added in order, is the image's loss (by quotients). -/
theorem imageLoss_of_windows (g w0 w1 w2 w3 w4 w5 w6 w7 w8 : ℕ → ℕ → EReal)
      (h0 : ∀ r c, r < 128 → c < 1024 → w0 r c = g (0 + r) c) (h1 : ∀ r c, r < 128 → c < 1024 → w1 r c = g (126 + r) c)
      (h2 : ∀ r c, r < 128 → c < 1024 → w2 r c = g (252 + r) c) (h3 : ∀ r c, r < 128 → c < 1024 → w3 r c = g (378 + r) c)
      (h4 : ∀ r c, r < 128 → c < 1024 → w4 r c = g (504 + r) c) (h5 : ∀ r c, r < 128 → c < 1024 → w5 r c = g (630 + r) c)
      (h6 : ∀ r c, r < 128 → c < 1024 → w6 r c = g (756 + r) c) (h7 : ∀ r c, r < 128 → c < 1024 → w7 r c = g (882 + r) c)
      (h8 : ∀ r c, r < 16 → c < 1024 → w8 r c = g (1008 + r) c) :
      (0 : EReal)
        + (∑ r ∈ Finset.range 126, ∑ c ∈ Finset.range 1022, lossAtM w0 r c) + (∑ r ∈ Finset.range 126, ∑ c ∈ Finset.range 1022, lossAtM w1 r c)
        + (∑ r ∈ Finset.range 126, ∑ c ∈ Finset.range 1022, lossAtM w2 r c) + (∑ r ∈ Finset.range 126, ∑ c ∈ Finset.range 1022, lossAtM w3 r c)
        + (∑ r ∈ Finset.range 126, ∑ c ∈ Finset.range 1022, lossAtM w4 r c) + (∑ r ∈ Finset.range 126, ∑ c ∈ Finset.range 1022, lossAtM w5 r c)
        + (∑ r ∈ Finset.range 126, ∑ c ∈ Finset.range 1022, lossAtM w6 r c) + (∑ r ∈ Finset.range 126, ∑ c ∈ Finset.range 1022, lossAtM w7 r c)
        + (∑ r ∈ Finset.range 14, ∑ c ∈ Finset.range 1022, lossAtM w8 r c)
      = imageLoss g := by
  rw [zero_add, window_loss g w0 0 126 128 (by norm_num) h0, window_loss g w1 126 126 128 (by norm_num) h1,
    window_loss g w2 252 126 128 (by norm_num) h2, window_loss g w3 378 126 128 (by norm_num) h3,
    window_loss g w4 504 126 128 (by norm_num) h4, window_loss g w5 630 126 128 (by norm_num) h5,
    window_loss g w6 756 126 128 (by norm_num) h6, window_loss g w7 882 126 128 (by norm_num) h7,
    window_loss g w8 1008 14 16 (by norm_num) h8]
  unfold imageLoss
  exact (sum_rows (fun i => ∑ j ∈ Finset.range 1022, lossAt g i j)).symm

/-- The same for the counts of flagged pixels. -/
theorem imageFlags_of_windows (g w0 w1 w2 w3 w4 w5 w6 w7 w8 : ℕ → ℕ → EReal)
      (h0 : ∀ r c, r < 128 → c < 1024 → w0 r c = g (0 + r) c) (h1 : ∀ r c, r < 128 → c < 1024 → w1 r c = g (126 + r) c)
      (h2 : ∀ r c, r < 128 → c < 1024 → w2 r c = g (252 + r) c) (h3 : ∀ r c, r < 128 → c < 1024 → w3 r c = g (378 + r) c)
      (h4 : ∀ r c, r < 128 → c < 1024 → w4 r c = g (504 + r) c) (h5 : ∀ r c, r < 128 → c < 1024 → w5 r c = g (630 + r) c)
      (h6 : ∀ r c, r < 128 → c < 1024 → w6 r c = g (756 + r) c) (h7 : ∀ r c, r < 128 → c < 1024 → w7 r c = g (882 + r) c)
      (h8 : ∀ r c, r < 16 → c < 1024 → w8 r c = g (1008 + r) c) :
      (0 : EReal)
        + (∑ r ∈ Finset.range 126, ∑ c ∈ Finset.range 1022, flagAtM w0 r c) + (∑ r ∈ Finset.range 126, ∑ c ∈ Finset.range 1022, flagAtM w1 r c)
        + (∑ r ∈ Finset.range 126, ∑ c ∈ Finset.range 1022, flagAtM w2 r c) + (∑ r ∈ Finset.range 126, ∑ c ∈ Finset.range 1022, flagAtM w3 r c)
        + (∑ r ∈ Finset.range 126, ∑ c ∈ Finset.range 1022, flagAtM w4 r c) + (∑ r ∈ Finset.range 126, ∑ c ∈ Finset.range 1022, flagAtM w5 r c)
        + (∑ r ∈ Finset.range 126, ∑ c ∈ Finset.range 1022, flagAtM w6 r c) + (∑ r ∈ Finset.range 126, ∑ c ∈ Finset.range 1022, flagAtM w7 r c)
        + (∑ r ∈ Finset.range 14, ∑ c ∈ Finset.range 1022, flagAtM w8 r c)
      = imageFlags g := by
  rw [zero_add, window_flags g w0 0 126 128 (by norm_num) h0, window_flags g w1 126 126 128 (by norm_num) h1,
    window_flags g w2 252 126 128 (by norm_num) h2, window_flags g w3 378 126 128 (by norm_num) h3,
    window_flags g w4 504 126 128 (by norm_num) h4, window_flags g w5 630 126 128 (by norm_num) h5,
    window_flags g w6 756 126 128 (by norm_num) h6, window_flags g w7 882 126 128 (by norm_num) h7,
    window_flags g w8 1008 14 16 (by norm_num) h8]
  unfold imageFlags
  exact (sum_rows (fun i => ∑ j ∈ Finset.range 1022, flagAt g i j)).symm

end Curvature

end
-- ==== Proof.ImageSumK.lean ====
/-
  One image block, summed window by window, on the extended reals.

  The block's 1024 rows are read as nine overlapping windows of rows (eight of 128 rows starting at rows 0, 126, ..., 882,
  and one of 16 rows starting at row 1008). Each window contributes the double sum, over its interior pixels, of the
  per-pixel loss (and of the per-pixel flag); the nine contributions are added in order onto zero.
  * A window of rows o .. o+127 (or o .. o+15), viewed as a function of a row and a column number, is the block viewed the
    same way with the row shifted by o: dropping the two unit axes keeps the row-major position, and a unit-stride
    rectangle with offsets (0, 0, o, 0) reads the block at (0, 0, o + r, c).
  * Interior rows of consecutive windows tile the interior rows 0 .. 1021 of the image, so the nine double sums add up to
    the image's loss and to the image's count of flagged pixels.
-/
import proofs.«166240_j2757369004563_1_alg».proof.Proof.Pieces
import proofs.«166240_j2757369004563_1_alg».proof.Proof.ChunkRead
import proofs.«166240_j2757369004563_1_alg».proof.Proof.Pixel
import proofs.«166240_j2757369004563_1_alg».proof.Proof.ImageRows
import Idealize.ShloMosaic.Lib.ValueIdx
import Idealize.ShloMosaic.Lib.Pipeline.Value

set_option maxRecDepth 16384

noncomputable section

namespace Cert.KernelIdeal.ImageSum

open Idealize.ShloMosaic Idealize.ShloMosaic.ValueIdx Cert.KernelIdeal Cert.KernelIdeal.Gen Cert.KernelIdeal.Chunk Cert.KernelIdeal.ChunkRead

/-- An image block [1,1,1024,1024] as a function of row and column numbers (taken mod 1024, so that it is total). -/
def blockGrid (x0 : Vec Ideal S1x1x1024x1024 .f32) : ℕ → ℕ → EReal :=
  fun r c => x0 (ix4 (0 : Fin 1) (0 : Fin 1) ⟨r % 1024, Nat.mod_lt _ (by norm_num)⟩ ⟨c % 1024, Nat.mod_lt _ (by norm_num)⟩)

/-! ## A window of rows is the block shifted down -/

/-- Rows o .. o+127 of the block, at row r < 128 and column c < 1024, are the block at row o + r and column c. -/
theorem grid_win128 (x0 : Vec Ideal S1x1x1024x1024 .f32) (o : ℕ)
    (inb : ∀ a, (![0, 0, o, 0] : Fin 4 → ℕ) a + S1x1x128x1024.size a ≤ S1x1x1024x1024.size a)
    (r c : ℕ) (hr : r < 128) (hc : c < 1024) :
    grid128 (win128 (F := Ideal) x0 o inb) r c = blockGrid x0 (o + r) c := by
  have ho := inb (⟨2, by decide⟩ : Fin 4)
  change o + 128 ≤ 1024 at ho
  unfold grid128 win128 blockGrid
  refine (shapeCast_apply _ shapeCasts_S1x1x128x1024_S128x1024 _
    (ix4 (0 : Fin 1) (0 : Fin 1) (⟨r % 128, Nat.mod_lt _ (by norm_num)⟩ : Fin 128)
      (⟨c % 1024, Nat.mod_lt _ (by norm_num)⟩ : Fin 1024)) ?_).trans ?_
  · rw [Shape.rowMajor_val_four, Shape.rowMajor_val_two]
    show ((0 * 1 + 0) * 128 + r % 128) * 1024 + c % 1024 = (r % 128) * 1024 + c % 1024
    omega
  · refine congrArg x0 (funext fun a => ?_)
    match a with
    | ⟨0, _⟩ => exact Fin.ext (by show 0 + 1 * 0 = 0; omega)
    | ⟨1, _⟩ => exact Fin.ext (by show 0 + 1 * 0 = 0; omega)
    | ⟨2, _⟩ => exact Fin.ext (by show o + 1 * (r % 128) = (o + r) % 1024; omega)
    | ⟨3, _⟩ => exact Fin.ext (by show 0 + 1 * (c % 1024) = c % 1024; omega)

/-- Rows o .. o+15 of the block, at row r < 16 and column c < 1024, are the block at row o + r and column c. -/
theorem grid_win16 (x0 : Vec Ideal S1x1x1024x1024 .f32) (o : ℕ)
    (inb : ∀ a, (![0, 0, o, 0] : Fin 4 → ℕ) a + S1x1x16x1024.size a ≤ S1x1x1024x1024.size a)
    (r c : ℕ) (hr : r < 16) (hc : c < 1024) :
    grid16 (win16 (F := Ideal) x0 o inb) r c = blockGrid x0 (o + r) c := by
  have ho := inb (⟨2, by decide⟩ : Fin 4)
  change o + 16 ≤ 1024 at ho
  unfold grid16 win16 blockGrid
  refine (shapeCast_apply _ shapeCasts_S1x1x16x1024_S16x1024 _
    (ix4 (0 : Fin 1) (0 : Fin 1) (⟨r % 16, Nat.mod_lt _ (by norm_num)⟩ : Fin 16)
      (⟨c % 1024, Nat.mod_lt _ (by norm_num)⟩ : Fin 1024)) ?_).trans ?_
  · rw [Shape.rowMajor_val_four, Shape.rowMajor_val_two]
    show ((0 * 1 + 0) * 16 + r % 16) * 1024 + c % 1024 = (r % 16) * 1024 + c % 1024
    omega
  · refine congrArg x0 (funext fun a => ?_)
    match a with
    | ⟨0, _⟩ => exact Fin.ext (by show 0 + 1 * 0 = 0; omega)
    | ⟨1, _⟩ => exact Fin.ext (by show 0 + 1 * 0 = 0; omega)
    | ⟨2, _⟩ => exact Fin.ext (by show o + 1 * (r % 16) = (o + r) % 1024; omega)
    | ⟨3, _⟩ => exact Fin.ext (by show 0 + 1 * (c % 1024) = c % 1024; omega)

/-! ## The running sums start at zero -/

theorem k0_pay7_apply (y : S1x1.Idx) : k0_pay7 (F := Ideal) y = 0 := by
  show Scalar.ofBits (F := Ideal) .f32 0x00000000#32 = 0
  rw [ofBits_scalar, Ideal.ofBits_zero_f32]

theorem k0_pay8_apply (y : S1x1.Idx) : k0_pay8 (F := Ideal) y = 0 := by
  show Scalar.ofBits (F := Ideal) .f32 0x00000000#32 = 0
  rw [ofBits_scalar, Ideal.ofBits_zero_f32]

/-! ## The nine windows add up to the image -/

/-- The kernel's nine window sums of flag * excess add up to the image's loss. -/
theorem imageLossK_eq (x0 : Vec Ideal S1x1x1024x1024 .f32) (y : S1x1.Idx) :
    imageLossK (F := Ideal) x0 y = Curvature.imageLoss (blockGrid x0) := by
  unfold imageLossK
  simp only [addf_apply, k0_pay7_apply, loss126_eq, loss14_eq]
  exact Curvature.imageLoss_of_windows (blockGrid x0) _ _ _ _ _ _ _ _ _
    (grid_win128 x0 0 inb_S1x1x1024x1024_S1x1x128x1024_0_0_0_0)
    (grid_win128 x0 126 inb_S1x1x1024x1024_S1x1x128x1024_0_0_126_0)
    (grid_win128 x0 252 inb_S1x1x1024x1024_S1x1x128x1024_0_0_252_0)
    (grid_win128 x0 378 inb_S1x1x1024x1024_S1x1x128x1024_0_0_378_0)
    (grid_win128 x0 504 inb_S1x1x1024x1024_S1x1x128x1024_0_0_504_0)
    (grid_win128 x0 630 inb_S1x1x1024x1024_S1x1x128x1024_0_0_630_0)
    (grid_win128 x0 756 inb_S1x1x1024x1024_S1x1x128x1024_0_0_756_0)
    (grid_win128 x0 882 inb_S1x1x1024x1024_S1x1x128x1024_0_0_882_0)
    (grid_win16 x0 1008 inb_S1x1x1024x1024_S1x1x16x1024_0_0_1008_0)

/-- The kernel's nine window counts add up to the image's count of flagged pixels. -/
theorem imageCountK_eq (x0 : Vec Ideal S1x1x1024x1024 .f32) (y : S1x1.Idx) :
    imageCountK (F := Ideal) x0 y = Curvature.imageFlags (blockGrid x0) := by
  unfold imageCountK
  simp only [addf_apply, k0_pay8_apply, count126_eq, count14_eq]
  exact Curvature.imageFlags_of_windows (blockGrid x0) _ _ _ _ _ _ _ _ _
    (grid_win128 x0 0 inb_S1x1x1024x1024_S1x1x128x1024_0_0_0_0)
    (grid_win128 x0 126 inb_S1x1x1024x1024_S1x1x128x1024_0_0_126_0)
    (grid_win128 x0 252 inb_S1x1x1024x1024_S1x1x128x1024_0_0_252_0)
    (grid_win128 x0 378 inb_S1x1x1024x1024_S1x1x128x1024_0_0_378_0)
    (grid_win128 x0 504 inb_S1x1x1024x1024_S1x1x128x1024_0_0_504_0)
    (grid_win128 x0 630 inb_S1x1x1024x1024_S1x1x128x1024_0_0_630_0)
    (grid_win128 x0 756 inb_S1x1x1024x1024_S1x1x128x1024_0_0_756_0)
    (grid_win128 x0 882 inb_S1x1x1024x1024_S1x1x128x1024_0_0_882_0)
    (grid_win16 x0 1008 inb_S1x1x1024x1024_S1x1x16x1024_0_0_1008_0)

end Cert.KernelIdeal.ImageSum

end
-- ==== Proof.KernelValue.lean ====
/-
  The kernel's result, read off its run: the loss of 32 images.

  The grid has 32 points, one image each; points 16q .. 16q+15 form a run that accumulates into one pair of running sums,
  and the run's last point copies the pair into entry q of the two result arrays. After the region the program adds the
  two entries of each array and divides the loss total by the count total plus eps. Image by image the kernel's sums are
  the per-image loss and count of the specification, so the result is the specification's total of the argument array.
-/
import proofs.«166240_j2757369004563_1_alg».proof.Proof.Points
import proofs.«166240_j2757369004563_1_alg».proof.Proof.ImageSumK
import proofs.«166240_j2757369004563_1_alg».proof.Proof.Pixel
import proofs.«166240_j2757369004563_1_alg».proof.Proof.PixelLaw
import Idealize.ShloMosaic.Lib.StableHlo.Run
import Idealize.ShloMosaic.Lib.Tactic
import Idealize.ShloMosaic.Lib.IdealHost
import Idealize.ShloMosaic.PureOps.Ideal.Laws
import Idealize.ShloMosaic.Lib.ValueIdx
import Idealize.ShloMosaic.Lib.Pipeline.Value

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)
open Cert.KernelIdeal.Chunk Cert.KernelIdeal.ImageSum

variable (m : (ℓ : Loc nD τ sig) → Buf (Elt Ideal) ℓ)

variable (ρ : Dev nD → PrngReg)

/-! ## Where the windows' blocks sit -/

/-- The image block of grid point t is image t of the batch. -/
theorem idx0_0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
/-- The output block of grid point t is entry t / 16 of the two-entry result arrays, a single element. -/
theorem idx0_1 : ∀ t : Fin cfg0.N, win0_1.index t 0 = t.val / 16 ∧ win0_1.index t 1 = 0 ∧ win0_1.index t 2 = 0 :=
  (by decide +kernel : ∀ t : Fin grid0.N, win0_1.index t 0 = t.val / 16 ∧ win0_1.index t 1 = 0 ∧ win0_1.index t 2 = 0)
theorem idx0_2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)
theorem xsize0_1 : ∀ t : Fin cfg0.N, win0_1.xsize (grid0.coords t) 0 = 1 ∧ win0_1.xsize (grid0.coords t) 1 = 1 ∧ win0_1.xsize (grid0.coords t) 2 = 1 :=
  (by decide +kernel : ∀ t : Fin grid0.N, win0_1.xsize (grid0.coords t) 0 = 1 ∧ win0_1.xsize (grid0.coords t) 1 = 1 ∧ win0_1.xsize (grid0.coords t) 2 = 1)
theorem xsize0_2 : ∀ t : Fin cfg0.N, win0_2.xsize (grid0.coords t) 0 = 1 ∧ win0_2.xsize (grid0.coords t) 1 = 1 ∧ win0_2.xsize (grid0.coords t) 2 = 1 :=
  (by decide +kernel : ∀ t : Fin grid0.N, win0_2.xsize (grid0.coords t) 0 = 1 ∧ win0_2.xsize (grid0.coords t) 1 = 1 ∧ win0_2.xsize (grid0.coords t) 2 = 1)

/-! ## The two result arrays -/

/-- The losses of images 16q .. 16q+15, added. -/
def lossRow (c : Dev nD) (q : ℕ) : EReal := ∑ s ∈ Finset.range 16, lossOf m c (16 * q + s)
/-- The counts of images 16q .. 16q+15, added. -/
def countRow (c : Dev nD) (q : ℕ) : EReal := ∑ s ∈ Finset.range 16, countOf m c (16 * q + s)

/-- The first result array: entry q holds the loss of the q-th run of sixteen images. -/
def lossArr (c : Dev nD) : Buf (Elt Ideal) ((c : Thread nD τ).loc main_v0_0) := fun i => lossRow m c (i 0).val

/-- The second result array: entry q holds the count of the q-th run of sixteen images. -/
def countArr (c : Dev nD) : Buf (Elt Ideal) ((c : Thread nD τ).loc main_v0_1) := fun i => countRow m c (i 0).val

/-- What a run's last point writes back is that run's entry of the first array. -/
theorem flushed_eq1 (c : Dev nD) (t : Fin cfg0.N) (hf : (cfg0.win 1).flush t = true) :
    (dats m 0 c).flushed 1 t = ((cfg0.win 1).blk t).view.read (Elt Ideal) (lossArr m c) := by
  have h15 : t.val % 16 = 15 := (flush0_1 t).mp hf
  funext y
  show (cfg0.win 1).cut (grid0.coords t) ((dats m 0 c).after 1 t) y = _
  rw [after0_1]
  show (outsAt0 m c t.val t.isLt).1 _ = _
  rw [out1_at m c t h15, View.read_apply]
  show _ = lossRow m c ((((cfg0.win 1).blk t).view.emb y) 0).val
  have he : ((((cfg0.win 1).blk t).view.emb y) 0).val = t.val / 16 := by
    show win0_1.index t 0 * 1 + 1 * (y 0).val = t.val / 16
    have hy : (y 0).val < 1 := (y 0).isLt
    rw [(idx0_1 t).1]; omega
  rw [he]; rfl

theorem flushed_eq2 (c : Dev nD) (t : Fin cfg0.N) (hf : (cfg0.win 2).flush t = true) :
    (dats m 0 c).flushed 2 t = ((cfg0.win 2).blk t).view.read (Elt Ideal) (countArr m c) := by
  have h15 : t.val % 16 = 15 := (flush0_2 t).mp hf
  funext y
  show (cfg0.win 2).cut (grid0.coords t) ((dats m 0 c).after 2 t) y = _
  rw [after0_2]
  show (outsAt0 m c t.val t.isLt).2.1 _ = _
  rw [out2_at m c t h15, View.read_apply]
  show _ = countRow m c ((((cfg0.win 2).blk t).view.emb y) 0).val
  have he : ((((cfg0.win 2).blk t).view.emb y) 0).val = t.val / 16 := by
    show win0_2.index t 0 * 1 + 1 * (y 0).val = t.val / 16
    have hy : (y 0).val < 1 := (y 0).isLt
    rw [(idx0_2 t).1]; omega
  rw [he]; rfl

/-- Entry q of a result array is written back by point 16q + 15. -/
theorem cover1 (c : Dev nD) (i : ((cfg0.win 1).arr.view.loc (c.tc : Thread nD τ)).2.ty.Idx) :
    ∃ t : Fin cfg0.N, (cfg0.win 1).flush t = true ∧ i ∈ ((cfg0.win 1).blk t).view.set := by
  have hN : cfg0.N = 32 := N_0
  have h0 : (i 0 : ℕ) < 2 := (i 0).isLt
  have h1 : (i 1 : ℕ) < 1 := (i 1).isLt
  have h2 : (i 2 : ℕ) < 1 := (i 2).isLt
  let t15 : Fin cfg0.N := ⟨16 * (i 0).val + 15, by omega⟩
  have ht : t15.val = 16 * (i 0).val + 15 := rfl
  refine ⟨t15, (flush0_1 t15).mpr (by rw [ht]; omega), ?_⟩
  show i ∈ ((View.whole main_v0_0).slice (win0_1.rect t15)).set
  rw [View.set_slice_whole, Rect.mem_set_unit]
  intro a
  match a with
  | ⟨0, _⟩ =>
    show win0_1.index t15 0 * win0_1.size 0 ≤ (i 0 : ℕ) ∧ (i 0 : ℕ) < win0_1.index t15 0 * win0_1.size 0 + win0_1.xsize (grid0.coords t15) 0
    rw [(idx0_1 t15).1, (xsize0_1 t15).1, show win0_1.size 0 = 1 from rfl, ht]; omega
  | ⟨1, _⟩ =>
    show win0_1.index t15 1 * win0_1.size 1 ≤ (i 1 : ℕ) ∧ (i 1 : ℕ) < win0_1.index t15 1 * win0_1.size 1 + win0_1.xsize (grid0.coords t15) 1
    rw [(idx0_1 t15).2.1, (xsize0_1 t15).2.1, show win0_1.size 1 = 1 from rfl]; omega
  | ⟨2, _⟩ =>
    show win0_1.index t15 2 * win0_1.size 2 ≤ (i 2 : ℕ) ∧ (i 2 : ℕ) < win0_1.index t15 2 * win0_1.size 2 + win0_1.xsize (grid0.coords t15) 2
    rw [(idx0_1 t15).2.2, (xsize0_1 t15).2.2, show win0_1.size 2 = 1 from rfl]; omega

theorem cover2 (c : Dev nD) (i : ((cfg0.win 2).arr.view.loc (c.tc : Thread nD τ)).2.ty.Idx) :
    ∃ t : Fin cfg0.N, (cfg0.win 2).flush t = true ∧ i ∈ ((cfg0.win 2).blk t).view.set := by
  have hN : cfg0.N = 32 := N_0
  have h0 : (i 0 : ℕ) < 2 := (i 0).isLt
  have h1 : (i 1 : ℕ) < 1 := (i 1).isLt
  have h2 : (i 2 : ℕ) < 1 := (i 2).isLt
  let t15 : Fin cfg0.N := ⟨16 * (i 0).val + 15, by omega⟩
  have ht : t15.val = 16 * (i 0).val + 15 := rfl
  refine ⟨t15, (flush0_2 t15).mpr (by rw [ht]; omega), ?_⟩
  show i ∈ ((View.whole main_v0_1).slice (win0_2.rect t15)).set
  rw [View.set_slice_whole, Rect.mem_set_unit]
  intro a
  match a with
  | ⟨0, _⟩ =>
    show win0_2.index t15 0 * win0_2.size 0 ≤ (i 0 : ℕ) ∧ (i 0 : ℕ) < win0_2.index t15 0 * win0_2.size 0 + win0_2.xsize (grid0.coords t15) 0
    rw [(idx0_2 t15).1, (xsize0_2 t15).1, show win0_2.size 0 = 1 from rfl, ht]; omega
  | ⟨1, _⟩ =>
    show win0_2.index t15 1 * win0_2.size 1 ≤ (i 1 : ℕ) ∧ (i 1 : ℕ) < win0_2.index t15 1 * win0_2.size 1 + win0_2.xsize (grid0.coords t15) 1
    rw [(idx0_2 t15).2.1, (xsize0_2 t15).2.1, show win0_2.size 1 = 1 from rfl]; omega
  | ⟨2, _⟩ =>
    show win0_2.index t15 2 * win0_2.size 2 ≤ (i 2 : ℕ) ∧ (i 2 : ℕ) < win0_2.index t15 2 * win0_2.size 2 + win0_2.xsize (grid0.coords t15) 2
    rw [(idx0_2 t15).2.2, (xsize0_2 t15).2.2, show win0_2.size 2 = 1 from rfl]; omega

/-- So after the region the two result arrays hold the per-run sums. -/
theorem final1 (c : Dev nD) : (dats m 0 c).arrAt 1 cfg0.N = lossArr m c :=
  (dats m 0 c).arrAt_eq_of_cover 1 (lossArr m c) (flushed_eq1 m c) (cover1 c)

theorem final2 (c : Dev nD) : (dats m 0 c).arrAt 2 cfg0.N = countArr m c :=
  (dats m 0 c).arrAt_eq_of_cover 2 (countArr m c) (flushed_eq2 m c) (cover2 c)

/-! ## The lines after the region: the two arrays summed, and the quotient -/

/-- A sum over the two-entry array's indices is the sum of its two entries. -/
def idxEquiv211 : S2x1x1.Idx ≃ Fin 2 where
  toFun i := i 0
  invFun q := ix3 q (0 : Fin 1) (0 : Fin 1)
  left_inv i := by
    funext a
    match a with
    | ⟨0, _⟩ => rfl
    | ⟨1, _⟩ => exact (Fin.ext (Nat.lt_one_iff.mp (i 1).isLt)).symm
    | ⟨2, _⟩ => exact (Fin.ext (Nat.lt_one_iff.mp (i 2).isLt)).symm
  right_inv _ := rfl

theorem sum_idx211 (f : S2x1x1.Idx → EReal) : ∑ i, f i = f (ix3 (0 : Fin 2) (0 : Fin 1) (0 : Fin 1)) + f (ix3 (1 : Fin 2) (0 : Fin 1) (0 : Fin 1)) := by
  rw [← Equiv.sum_comp idxEquiv211.symm f, Fin.sum_univ_two]
  rfl

/-- The host's sum of a two-entry array over all its axes, from zero. -/
theorem hostSum211 (y0 : FVec Ideal S2x1x1 .f32) (j : S_.Idx) :
    Host.reduceAdd y0 (constant (F := Ideal) S_ .f32 0x00000000#32) reducesTo_S2x1x1_S_d0_1_2 h_S_ j
      = Ideal.ofBits .f32 0x00000000#32 + (y0 (ix3 (0 : Fin 2) (0 : Fin 1) (0 : Fin 1)) + y0 (ix3 (1 : Fin 2) (0 : Fin 1) (0 : Fin 1))) := by
  have h : Host.reduceAdd y0 (constant (F := Ideal) S_ .f32 0x00000000#32) reducesTo_S2x1x1_S_d0_1_2 h_S_ j
      = Ideal.ofBits .f32 0x00000000#32 + ∑ i : S2x1x1.Idx, y0 i := by
    simp only [Host.reduceAdd, Ideal.hostReduceAdd_def]
    exact Ideal.hostReduceAdd_total reducesTo_S2x1x1_S_d0_1_2 (fun b => b.elim0) y0 _ j
  rw [h, sum_idx211]

/-- The lines after the region, of any two result arrays a and b: (0 + a0 + a1) / ((0 + b0 + b1) + eps). -/
theorem tail_form (a b : FVec Ideal S2x1x1 .f32) (j : S_.Idx) :
    Host.divf (Host.reduceAdd a (constant (F := Ideal) S_ .f32 0x00000000#32) reducesTo_S2x1x1_S_d0_1_2 h_S_)
      (addf (Host.reduceAdd b (constant (F := Ideal) S_ .f32 0x00000000#32) reducesTo_S2x1x1_S_d0_1_2 h_S_)
        (constant (F := Ideal) S_ .f32 0x322BCC77#32)) j
    = Ideal.div (Ideal.ofBits .f32 0x00000000#32 + (a (ix3 (0 : Fin 2) (0 : Fin 1) (0 : Fin 1)) + a (ix3 (1 : Fin 2) (0 : Fin 1) (0 : Fin 1))))
        ((Ideal.ofBits .f32 0x00000000#32 + (b (ix3 (0 : Fin 2) (0 : Fin 1) (0 : Fin 1)) + b (ix3 (1 : Fin 2) (0 : Fin 1) (0 : Fin 1))))
          + Ideal.ofBits .f32 0x322BCC77#32) := by
  rw [← hostSum211 a j, ← hostSum211 b j]
  rfl

theorem lossArr_zero (c : Dev nD) : lossArr m c (ix3 (0 : Fin 2) (0 : Fin 1) (0 : Fin 1)) = lossRow m c 0 := rfl
theorem lossArr_one (c : Dev nD) : lossArr m c (ix3 (1 : Fin 2) (0 : Fin 1) (0 : Fin 1)) = lossRow m c 1 := rfl
theorem countArr_zero (c : Dev nD) : countArr m c (ix3 (0 : Fin 2) (0 : Fin 1) (0 : Fin 1)) = countRow m c 0 := rfl
theorem countArr_one (c : Dev nD) : countArr m c (ix3 (1 : Fin 2) (0 : Fin 1) (0 : Fin 1)) = countRow m c 1 := rfl

/-- The program's result: the two loss entries added, over the two count entries added plus eps. -/
def resultK (c : Dev nD) : EReal :=
  Ideal.div (Curvature.wZero + (lossRow m c 0 + lossRow m c 1)) ((Curvature.wZero + (countRow m c 0 + countRow m c 1)) + Curvature.wEps)

theorem tail_v4 (c : Dev nD) :
    Pipeline.afterTail₀ cfgs (dats m) 0 (V0 m) [hostOps1] c main_v4 = fun _ => resultK m c := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.devRef .tc main_v0_0) = lossArr m c from
      (Pipeline.withArrays_arr spec0 launch0.win.arr_inj c _ _ 1).trans (final1 m c),
    show Pipeline.withArrays (cfgs 0).spec c (V0 m c) (fun w => (dats m 0 c).arrAt w (cfgs 0).N) (Proc.devRef .tc main_v0_1) = countArr m c from
      (Pipeline.withArrays_arr spec0 launch0.win.arr_inj c _ _ 2).trans (final2 m c)]
  funext j
  rw [tail_form (lossArr m c) (countArr m c) j, lossArr_zero, lossArr_one, countArr_zero, countArr_one]
  unfold resultK
  rfl

/-! ## Image by image, the kernel's sums are the specification's -/

/-- The argument array [32,1,1024,1024] as 32 images. -/
def imagesK (c : Dev nD) : Fin 32 → Fin 1024 → Fin 1024 → EReal :=
  fun b r k => m ((c : Thread nD τ).loc main_arg0) (ix4 b (0 : Fin 1) r k)

/-- The block grid point k is handed is image k of the argument array. -/
theorem block_eq (c : Dev nD) (k : ℕ) (hk : k < 32) (hk' : k < cfg0.N) :
    blockGrid (iblk m c 0 ⟨k, hk'⟩) = Curvature.imageOf (imagesK m c) ⟨k, hk⟩ := by
  funext r q
  unfold blockGrid Curvature.imageOf imagesK iblk
  rw [View.read_apply]
  show V m c main_arg0 _ = m ((c : Thread nD τ).loc main_arg0) _
  unfold V
  congr 1
  funext a
  apply Fin.ext
  match a with
  | ⟨0, _⟩ => show win0_0.index ⟨k, hk'⟩ 0 * 1 + 1 * 0 = k; rw [(idx0_0 ⟨k, hk'⟩).1]; show k * 1 + 1 * 0 = k; omega
  | ⟨1, _⟩ => show win0_0.index ⟨k, hk'⟩ 1 * 1 + 1 * 0 = 0; rw [(idx0_0 ⟨k, hk'⟩).2.1]
  | ⟨2, _⟩ => show win0_0.index ⟨k, hk'⟩ 2 * 1024 + 1 * (r % 1024) = r % 1024; rw [(idx0_0 ⟨k, hk'⟩).2.2.1]; omega
  | ⟨3, _⟩ => show win0_0.index ⟨k, hk'⟩ 3 * 1024 + 1 * (q % 1024) = q % 1024; rw [(idx0_0 ⟨k, hk'⟩).2.2.2]; omega

theorem lossOf_eq (c : Dev nD) (k : ℕ) (hk : k < 32) :
    lossOf m c k = Curvature.imageLoss (Curvature.imageOf (imagesK m c) ⟨k, hk⟩) := by
  have hk' : k < cfg0.N := by rw [show cfg0.N = 32 from N_0]; exact hk
  unfold lossOf
  rw [dif_pos hk', imageLossK_eq, block_eq m c k hk hk']

theorem countOf_eq (c : Dev nD) (k : ℕ) (hk : k < 32) :
    countOf m c k = Curvature.imageFlags (Curvature.imageOf (imagesK m c) ⟨k, hk⟩) := by
  have hk' : k < cfg0.N := by rw [show cfg0.N = 32 from N_0]; exact hk
  unfold countOf
  rw [dif_pos hk', imageCountK_eq, block_eq m c k hk hk']

/-- Two runs of sixteen are the thirty-two images. -/
theorem rows_total (f : ℕ → EReal) :
    (∑ s ∈ Finset.range 16, f (16 * 0 + s)) + (∑ s ∈ Finset.range 16, f (16 * 1 + s)) = ∑ k ∈ Finset.range 32, f k := by
  rw [show (32 : ℕ) = 16 + 16 from rfl, Finset.sum_range_add]
  simp only [Nat.mul_zero, Nat.zero_add, Nat.mul_one]

/-- The program's result is the specification's total of the argument array. -/
theorem lossRows_eq (c : Dev nD) :
    lossRow m c 0 + lossRow m c 1 = ∑ b : Fin 32, Curvature.imageLoss (Curvature.imageOf (imagesK m c) b) := by
  unfold lossRow
  rw [rows_total, ← Fin.sum_univ_eq_sum_range (fun k => lossOf m c k) 32]
  exact Finset.sum_congr rfl fun b _ => lossOf_eq m c b.val b.isLt

theorem countRows_eq (c : Dev nD) :
    countRow m c 0 + countRow m c 1 = ∑ b : Fin 32, Curvature.imageFlags (Curvature.imageOf (imagesK m c) b) := by
  unfold countRow
  rw [rows_total, ← Fin.sum_univ_eq_sum_range (fun k => countOf m c k) 32]
  exact Finset.sum_congr rfl fun b _ => countOf_eq m c b.val b.isLt

theorem resultK_eq (c : Dev nD) : resultK m c = Curvature.total (imagesK m c) := by
  unfold resultK Curvature.total
  rw [lossRows_eq, countRows_eq, Curvature.wZero_eq, zero_add, zero_add]

/-! ## The run, read -/

/-- Every weakly fair execution of the program ends with its result at the specification's total of the argument array,
    the argument array unchanged. -/
theorem run : θ_run defs (onTc (τ := τ) (main (F := Ideal))) ⟨m, fun _ => 0, ρ⟩ fun r => ∀ c : Dev nD,
      r.2.mem ((c : Thread nD τ).loc main_v4) = (fun _ => Curvature.total (imagesK m c))
      ∧ r.2.mem ((c : Thread nD τ).loc main_arg0) = m ((c : Thread nD τ).loc main_arg0) :=
  (θ_run defs _ _).mono (fun _ h c =>
      ⟨((h c).2 main_v4 (by decide)).trans ((tail_v4 m c).trans (funext fun _ => resultK_eq m c)),
        ((h c).1 0).trans ((dats m 0 c).arrAt_in 0 rfl _)⟩)
    (run_main m ρ)

end Cert.KernelIdeal.Gen

end
-- ==== Proof.LibSumIdx4.lean ====
/-
  A sum over every index of an array with one unit axis, as an iterated sum over its other coordinates.

  * An index of an `[n0, 1, n2, n3]` array is the triple of its three non-unit coordinates.
  * So a sum over all its indices is the sum over the first coordinate of the sums over the third of the sums
    over the fourth, in any additive commutative monoid.
-/
import Idealize.ShloMosaic.Lib.ValueIdx
import Mathlib.Algebra.BigOperators.Fin

noncomputable section

namespace Cert.Lib.SumIdx4

open Idealize.ShloMosaic Idealize.ShloMosaic.ValueIdx

/-- An index of an `[n0, 1, n2, n3]` array is its coordinates on axes 0, 2 and 3: the coordinate on the unit axis is 0. -/
def idxEquiv4u {n0 n2 n3 : Nat} : (⟨4, ![n0, 1, n2, n3]⟩ : Shape).Idx ≃ Fin n0 × Fin n2 × Fin n3 where
  toFun i := (i 0, i 2, i 3)
  invFun p := ix4 p.1 (0 : Fin 1) p.2.1 p.2.2
  left_inv i := by
    funext a
    match a with
    | ⟨0, _⟩ => rfl
    | ⟨1, _⟩ => exact (Fin.ext (Nat.lt_one_iff.mp (i 1).isLt)).symm
    | ⟨2, _⟩ => rfl
    | ⟨3, _⟩ => rfl
  right_inv _ := rfl

/-- A sum over every index of an `[n0, 1, n2, n3]` array is the triple sum over its three non-unit coordinates. -/
theorem sum_idx4u {M : Type*} [AddCommMonoid M] {n0 n2 n3 : Nat} (f : (⟨4, ![n0, 1, n2, n3]⟩ : Shape).Idx → M) :
    ∑ i, f i = ∑ a : Fin n0, ∑ b : Fin n2, ∑ c : Fin n3, f (ix4 a (0 : Fin 1) b c) := by
  rw [← Equiv.sum_comp (idxEquiv4u (n0 := n0) (n2 := n2) (n3 := n3)).symm f, Fintype.sum_prod_type]
  refine Finset.sum_congr rfl fun a _ => ?_
  rw [Fintype.sum_prod_type]
  rfl

end Cert.Lib.SumIdx4

end
-- ==== Proof.RefValue.lean ====
/-
  The value of the reference program: the curvature loss of its argument array.

  The reference program takes nine shifted 1022 x 1022 windows of each 1024 x 1024 image, combines them entry by
  entry into flag * excess and flag, sums each of the two arrays over every index, and divides.
  * A window entry at (b, 0, i, j) with offsets (o, o') is the image b at row i + o and column j + o'.
  * So the two summand arrays are, entry by entry, the per-pixel loss and flag (Curvature.lossAt and Curvature.flagAt).
  * A sum over every index of a [32, 1, 1022, 1022] array is the sum over images of the sums over rows of the sums
    over columns; a sum over Fin n is a sum over range n.
-/
import proofs.«166240_j2757369004563_1_alg».proof.Proof.Gen.ReferenceIdeal.Read
import proofs.«166240_j2757369004563_1_alg».proof.Proof.Pixel
import proofs.«166240_j2757369004563_1_alg».proof.Proof.LibSumIdx4
import Idealize.ShloMosaic.Lib.ValueIdx

noncomputable section

namespace Cert.ReferenceIdeal.RefValue

open Idealize.ShloMosaic Idealize.ShloMosaic.ValueIdx Cert.ReferenceIdeal Cert.ReferenceIdeal.Read

/-- The argument array [32,1,1024,1024] as 32 images. -/
def imagesOf (x0 : (⟨S32x1x1024x1024, .f32⟩ : BufTy).Contents (Elt Ideal)) : Fin 32 → Fin 1024 → Fin 1024 → EReal :=
  fun b r c => x0 (ix4 b (0 : Fin 1) r c)

/-! ## Window entries are image entries -/

/-- An entry of the argument array whose index has coordinates b, (0,) r, c is the image b at row r, column c. -/
theorem x0_at (x0 : (⟨S32x1x1024x1024, .f32⟩ : BufTy).Contents (Elt Ideal)) (b : Fin 32) (r c : ℕ)
    (hr : r < 1024) (hc : c < 1024) (k : S32x1x1024x1024.Idx)
    (h0 : (k 0).val = b.val) (h2 : (k 2).val = r) (h3 : (k 3).val = c) :
    x0 k = Curvature.imageOf (imagesOf x0) b r c := by
  unfold Curvature.imageOf imagesOf
  refine congrArg x0 (funext fun a => ?_)
  match a with
  | ⟨0, _⟩ => exact Fin.ext h0
  | ⟨1, _⟩ =>
    have h1 : (k 1).val < 1 := (k 1).isLt
    exact Fin.ext (by show (k 1).val = 0; omega)
  | ⟨2, _⟩ => exact Fin.ext (by show (k 2).val = r % 1024; rw [Nat.mod_eq_of_lt hr]; exact h2)
  | ⟨3, _⟩ => exact Fin.ext (by show (k 3).val = c % 1024; rw [Nat.mod_eq_of_lt hc]; exact h3)

section Windows

variable (x0 : (⟨S32x1x1024x1024, .f32⟩ : BufTy).Contents (Elt Ideal)) (b : Fin 32) (i j : Fin 1022)

theorem at_v0 : val_main_v0 (F := Ideal) x0 (ix4 b (0 : Fin 1) i j) = Curvature.imageOf (imagesOf x0) b (i.val + 1) (j.val + 2) := by
  rw [val_main_v0_apply]
  exact x0_at x0 b _ _ (by omega) (by omega) _ rfl (by show 1 + i.val = _; omega) (by show 2 + j.val = _; omega)
theorem at_v1 : val_main_v1 (F := Ideal) x0 (ix4 b (0 : Fin 1) i j) = Curvature.imageOf (imagesOf x0) b (i.val + 1) (j.val) := by
  rw [val_main_v1_apply]
  exact x0_at x0 b _ _ (by omega) (by omega) _ rfl (by show 1 + i.val = _; omega) (by show j.val = _; omega)
theorem at_v5 : val_main_v5 (F := Ideal) x0 (ix4 b (0 : Fin 1) i j) = Curvature.imageOf (imagesOf x0) b (i.val + 2) (j.val + 1) := by
  rw [val_main_v5_apply]
  exact x0_at x0 b _ _ (by omega) (by omega) _ rfl (by show 2 + i.val = _; omega) (by show 1 + j.val = _; omega)
theorem at_v6 : val_main_v6 (F := Ideal) x0 (ix4 b (0 : Fin 1) i j) = Curvature.imageOf (imagesOf x0) b (i.val) (j.val + 1) := by
  rw [val_main_v6_apply]
  exact x0_at x0 b _ _ (by omega) (by omega) _ rfl (by show i.val = _; omega) (by show 1 + j.val = _; omega)
theorem at_v10 : val_main_v10 (F := Ideal) x0 (ix4 b (0 : Fin 1) i j) = Curvature.imageOf (imagesOf x0) b (i.val + 2) (j.val + 2) := by
  rw [val_main_v10_apply]
  exact x0_at x0 b _ _ (by omega) (by omega) _ rfl (by show 2 + i.val = _; omega) (by show 2 + j.val = _; omega)
theorem at_v11 : val_main_v11 (F := Ideal) x0 (ix4 b (0 : Fin 1) i j) = Curvature.imageOf (imagesOf x0) b (i.val + 2) (j.val) := by
  rw [val_main_v11_apply]
  exact x0_at x0 b _ _ (by omega) (by omega) _ rfl (by show 2 + i.val = _; omega) (by show j.val = _; omega)
theorem at_v13 : val_main_v13 (F := Ideal) x0 (ix4 b (0 : Fin 1) i j) = Curvature.imageOf (imagesOf x0) b (i.val) (j.val + 2) := by
  rw [val_main_v13_apply]
  exact x0_at x0 b _ _ (by omega) (by omega) _ rfl (by show i.val = _; omega) (by show 2 + j.val = _; omega)
theorem at_v15 : val_main_v15 (F := Ideal) x0 (ix4 b (0 : Fin 1) i j) = Curvature.imageOf (imagesOf x0) b (i.val) (j.val) := by
  rw [val_main_v15_apply]
  exact x0_at x0 b _ _ (by omega) (by omega) _ rfl (by show i.val = _; omega) (by show j.val = _; omega)
theorem at_v43 : val_main_v43 (F := Ideal) x0 (ix4 b (0 : Fin 1) i j) = Curvature.imageOf (imagesOf x0) b (i.val + 1) (j.val + 1) := by
  rw [val_main_v43_apply]
  exact x0_at x0 b _ _ (by omega) (by omega) _ rfl (by show 1 + i.val = _; omega) (by show 1 + j.val = _; omega)
theorem at_v44 : val_main_v44 (F := Ideal) x0 (ix4 b (0 : Fin 1) i j) = Curvature.imageOf (imagesOf x0) b (i.val + 1) (j.val + 2) := by
  rw [val_main_v44_apply]
  exact x0_at x0 b _ _ (by omega) (by omega) _ rfl (by show 1 + i.val = _; omega) (by show 2 + j.val = _; omega)
theorem at_v48 : val_main_v48 (F := Ideal) x0 (ix4 b (0 : Fin 1) i j) = Curvature.imageOf (imagesOf x0) b (i.val + 1) (j.val) := by
  rw [val_main_v48_apply]
  exact x0_at x0 b _ _ (by omega) (by omega) _ rfl (by show 1 + i.val = _; omega) (by show j.val = _; omega)
theorem at_v53 : val_main_v53 (F := Ideal) x0 (ix4 b (0 : Fin 1) i j) = Curvature.imageOf (imagesOf x0) b (i.val + 2) (j.val + 1) := by
  rw [val_main_v53_apply]
  exact x0_at x0 b _ _ (by omega) (by omega) _ rfl (by show 2 + i.val = _; omega) (by show 1 + j.val = _; omega)
theorem at_v58 : val_main_v58 (F := Ideal) x0 (ix4 b (0 : Fin 1) i j) = Curvature.imageOf (imagesOf x0) b (i.val) (j.val + 1) := by
  rw [val_main_v58_apply]
  exact x0_at x0 b _ _ (by omega) (by omega) _ rfl (by show i.val = _; omega) (by show 1 + j.val = _; omega)

end Windows

/-! ## The two summand arrays, entry by entry -/

section Pixel

variable (x0 : (⟨S32x1x1024x1024, .f32⟩ : BufTy).Contents (Elt Ideal)) (b : Fin 32) (i j : Fin 1022)

/-- The zero-crossing bit at a pixel: the centre against its east, west, south and north neighbours, in that order. -/
theorem at_v62 : val_main_v62 (F := Ideal) x0 (ix4 b (0 : Fin 1) i j) =
    Curvature.zcBit (Curvature.imageOf (imagesOf x0) b (i.val + 1) (j.val + 1))
      (Curvature.imageOf (imagesOf x0) b (i.val + 1) (j.val + 2))
      (Curvature.imageOf (imagesOf x0) b (i.val + 1) j.val)
      (Curvature.imageOf (imagesOf x0) b (i.val + 2) (j.val + 1))
      (Curvature.imageOf (imagesOf x0) b i.val (j.val + 1)) := by
  simp only [val_main_v62_apply, val_main_v57_apply, val_main_v52_apply, val_main_v47_apply, val_main_v51_apply,
    val_main_v56_apply, val_main_v61_apply, val_main_v45_apply, val_main_v49_apply, val_main_v54_apply,
    val_main_v59_apply, val_main_v46_apply, val_main_v50_apply, val_main_v55_apply, val_main_v60_apply,
    val_main_cst_7_apply, val_main_cst_8_apply, val_main_cst_9_apply, val_main_cst_10_apply,
    at_v43, at_v44, at_v48, at_v53, at_v58, Ideal.cmpf_def, Ideal.mulf_def, Ideal.ofBits_def]
  rfl

/-- The flag at a pixel. -/
theorem at_v63 : val_main_v63 (F := Ideal) x0 (ix4 b (0 : Fin 1) i j) =
    Curvature.flagAt (Curvature.imageOf (imagesOf x0) b) i.val j.val := by
  rw [val_main_v63_apply, at_v62]
  rfl

/-- The excess curvature at a pixel. -/
theorem at_v42 : val_main_v42 (F := Ideal) x0 (ix4 b (0 : Fin 1) i j) =
    Curvature.excessD (Curvature.imageOf (imagesOf x0) b i.val j.val)
      (Curvature.imageOf (imagesOf x0) b i.val (j.val + 1))
      (Curvature.imageOf (imagesOf x0) b i.val (j.val + 2))
      (Curvature.imageOf (imagesOf x0) b (i.val + 1) j.val)
      (Curvature.imageOf (imagesOf x0) b (i.val + 1) (j.val + 2))
      (Curvature.imageOf (imagesOf x0) b (i.val + 2) j.val)
      (Curvature.imageOf (imagesOf x0) b (i.val + 2) (j.val + 1))
      (Curvature.imageOf (imagesOf x0) b (i.val + 2) (j.val + 2)) := by
  simp only [val_main_v42_apply, val_main_v41_apply, val_main_v40_apply, val_main_v39_apply, val_main_v38_apply,
    val_main_v37_apply, val_main_v36_apply, val_main_v35_apply, val_main_v34_apply, val_main_v33_apply,
    val_main_v32_apply, val_main_v31_apply, val_main_v30_apply, val_main_v29_apply, val_main_v28_apply,
    val_main_v27_apply, val_main_v26_apply, val_main_v25_apply, val_main_v24_apply, val_main_v23_apply,
    val_main_v22_apply, val_main_v21_apply, val_main_v20_apply, val_main_v19_apply, val_main_v18_apply,
    val_main_v17_apply, val_main_v16_apply, val_main_v14_apply, val_main_v12_apply, val_main_v9_apply,
    val_main_v8_apply, val_main_v7_apply, val_main_v4_apply, val_main_v3_apply, val_main_v2_apply,
    val_main_call0_v0_apply, val_main_call0_cst_apply,
    val_main_cst_apply, val_main_cst_0_apply, val_main_cst_1_apply, val_main_cst_2_apply, val_main_cst_3_apply,
    val_main_cst_4_apply, val_main_cst_5_apply, val_main_cst_6_apply,
    at_v0, at_v1, at_v5, at_v6, at_v10, at_v11, at_v13, at_v15,
    Ideal.mulf_def, Ideal.subf_def, Ideal.addf_def, Ideal.hostDivf_def, Ideal.hostPowf_def, Ideal.maximumf_def,
    Ideal.ofBits_def]
  rfl

/-- flag * excess at a pixel. -/
theorem at_v64 : val_main_v64 (F := Ideal) x0 (ix4 b (0 : Fin 1) i j) =
    Curvature.lossAt (Curvature.imageOf (imagesOf x0) b) i.val j.val := by
  rw [val_main_v64_apply, at_v63, at_v42]
  rfl

end Pixel

/-! ## The two sums and the quotient -/

theorem result_eq (x0 : (⟨S32x1x1024x1024, .f32⟩ : BufTy).Contents (Elt Ideal)) :
    val_main_v68 (F := Ideal) x0 = fun _ => Curvature.total (imagesOf x0) := by
  funext i
  rw [val_main_v68_apply, val_main_v67_apply, val_main_v65_apply, val_main_v66_apply, val_main_cst_11_apply,
    val_main_cst_12_apply, val_main_cst_13_apply]
  simp only [Ideal.hostDivf_def, Ideal.addf_def, Ideal.ofBits_def, Ideal.ofBits_zero_f32, zero_add]
  rw [Cert.Lib.SumIdx4.sum_idx4u, Cert.Lib.SumIdx4.sum_idx4u]
  simp only [at_v64, at_v63]
  unfold Curvature.total Curvature.imageLoss Curvature.imageFlags
  simp only [Finset.sum_range]

end Cert.ReferenceIdeal.RefValue

end
-- ==== Proof.lean ====
/-
  The certificate: a curvature-loss kernel equals its reference on the extended reals.

  Both programs take 32 images of 1024 x 1024 and return one number. At every interior pixel they form central
  differences of the 3 x 3 patch, a curvature quotient, the excess max((curvature)^2 - 1, 0), and a flag saying whether the
  centre changes sign against one of its four neighbours; the result is the sum of flag * excess over all pixels divided by
  the number of flagged pixels plus eps.

  The kernel multiplies where the reference divides: its two scale factors are named as the exact reciprocals of the
  reference's two divisors (the two ledger entries, each occurring once per window of rows), it writes the 3/2 power as
  s * sqrt s, and it adds the pixels window by window, image by image, core by core. On the extended reals every one of
  these is an identity that needs no finiteness (Proof/PixelLaw.lean), sums may be regrouped freely, and so both results
  are the one function Curvature.total of the argument array (Proof/Pixel.lean): the kernel's by reading its generated
  frame run (Proof/Pieces.lean, Proof/Points.lean, Proof/KernelValue.lean, over the window arithmetic of Proof/Chunk.lean,
  Proof/ChunkRead.lean, Proof/ImageRows.lean, Proof/ImageSumK.lean), the reference's by reading its generated run
  operation by operation (Proof/RefValue.lean). The three frames are the generated ones.
-/
import proofs.«166240_j2757369004563_1_alg».proof.Defs
import proofs.«166240_j2757369004563_1_alg».proof.Proof.Gen.Kernel
import proofs.«166240_j2757369004563_1_alg».proof.Proof.Gen.Kernel.Skeleton
import proofs.«166240_j2757369004563_1_alg».proof.Proof.Gen.Kernel.Launch
import proofs.«166240_j2757369004563_1_alg».proof.Proof.Gen.Kernel.Points
import proofs.«166240_j2757369004563_1_alg».proof.Proof.Gen.Kernel.Frame
import proofs.«166240_j2757369004563_1_alg».proof.Proof.Gen.KernelIdeal
import proofs.«166240_j2757369004563_1_alg».proof.Proof.Gen.KernelIdeal.Skeleton
import proofs.«166240_j2757369004563_1_alg».proof.Proof.Gen.KernelIdeal.Launch
import proofs.«166240_j2757369004563_1_alg».proof.Proof.Gen.KernelIdeal.Points
import proofs.«166240_j2757369004563_1_alg».proof.Proof.Gen.KernelIdeal.Frame
import proofs.«166240_j2757369004563_1_alg».proof.Proof.Gen.ReferenceIdeal
import proofs.«166240_j2757369004563_1_alg».proof.Proof.Gen.Pre_finite_inputs
import proofs.«166240_j2757369004563_1_alg».proof.Proof.Gen.ReferenceIdeal.Run
import proofs.«166240_j2757369004563_1_alg».proof.Proof.Gen.ReferenceIdeal.Read
import proofs.«166240_j2757369004563_1_alg».proof.Proof.KernelValue
import proofs.«166240_j2757369004563_1_alg».proof.Proof.RefValue
import Idealize.ShloMosaic.Adequacy
import Idealize.ShloMosaic.Init

noncomputable section

namespace Cert.Proof

open Idealize.ShloMosaic Idealize.SL.Sem

/-! ## The three frames -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-! ## The idealization's ledger: two named reciprocals -/

/-- The kernel's factor 1/(2h), read as the exact reciprocal of the reference's word for 2h. -/
theorem named1 : IdealRules.named_const.Statement Cert.KernelIdeal.κ "inv2h" .f32 0x410325C5#32 ((134217728 / 16374563 : ℝ) : EReal) :=
  IdealRules.named_const.statement Cert.KernelIdeal.κ "inv2h" .f32 0x410325C5#32 ((134217728 / 16374563 : ℝ) : EReal) rfl

/-- The kernel's factor 1/(4h^2), read as the exact reciprocal of the reference's word for 4h^2. -/
theorem named2 : IdealRules.named_const.Statement Cert.KernelIdeal.κ "inv4h2" .f32 0x42865F5B#32 ((1073741824 / 15981573 : ℝ) : EReal) :=
  IdealRules.named_const.statement Cert.KernelIdeal.κ "inv4h2" .f32 0x42865F5B#32 ((1073741824 / 15981573 : ℝ) : EReal) rfl

/-- Each of the nine windows of rows uses the first factor twice and the second once. -/
theorem preserves : Cert.preserves_Kernel_KernelIdeal :=
  ⟨named1, named1, named2,
    named1, named1, named2,
    named1, named1, named2,
    named1, named1, named2,
    named1, named1, named2,
    named1, named1, named2,
    named1, named1, named2,
    named1, named1, named2,
    named1, named1, named2⟩

/-! ## Equal results -/

/-- Both runs end with their result at Curvature.total of the (shared) argument array. -/
theorem algebraic : Cert.algebraic_KernelIdeal_ReferenceIdeal := by
  intro m ρ m' ρ' _ hagree
  refine ⟨fun c => fun _ => Curvature.total (Cert.KernelIdeal.Gen.imagesK m c), Cert.KernelIdeal.Gen.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v68_eq, Cert.ReferenceIdeal.RefValue.result_eq, hagree c]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
